-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4x32x4096 : Shape := ⟨4, ![64, 4, 32, 4096]⟩
abbrev S64x4096 : Shape := ⟨2, ![64, 4096]⟩
abbrev S64x32 : Shape := ⟨2, ![64, 32]⟩
abbrev S_ : Shape := ⟨0, ![]⟩

class Facts : Prop where
  bcast_S_S64x4x32x4096 : S_.BroadcastsInDim S64x4x32x4096 (![] : Fin 0 → Fin S64x4x32x4096.rank)
  reducesTo_S64x4x32x4096_S_d0_1_2_3 : S64x4x32x4096.ReducesTo [0, 1, 2, 3] S_
  h_S_ : 0 < S_.numel

variable [Facts]

def fn {F : FTy → Type} [FloatOps F] (main_arg0 : FVec F S64x4x32x4096 .f32) (main_arg1 : IVec S64x4096 32) (main_arg2 : IVec S64x32 32) : IVec S_ 1 :=
  let main_v0 : FVec F S64x4x32x4096 .f32 := Host.absf main_arg0
  let main_cst : FVec F S_ .f32 := constant S_ .f32 0x7F800000#32
  let main_v1 : FVec F S64x4x32x4096 .f32 := broadcastInDim S64x4x32x4096 ![] bcast_S_S64x4x32x4096 main_cst
  let main_v2 : IVec S64x4x32x4096 1 := cmpf .olt main_v0 main_v1
  let main_c : IVec S_ 1 := constantI S_ 1 1#1
  let main_v3 : IVec S_ 1 := (fun x v => Host.reduce IntOp.andi x v reducesTo_S64x4x32x4096_S_d0_1_2_3 h_S_) main_v2 main_c
  main_v3
-- ==== Kernel.lean ====
abbrev S64x4x32x4096 : Shape := ⟨4, ![64, 4, 32, 4096]⟩
abbrev S64x4096 : Shape := ⟨2, ![64, 4096]⟩
abbrev S64x32 : Shape := ⟨2, ![64, 32]⟩
abbrev S64x4x32x30 : Shape := ⟨4, ![64, 4, 32, 30]⟩
abbrev S8x4x32x1024 : Shape := ⟨4, ![8, 4, 32, 1024]⟩
abbrev S8x1024 : Shape := ⟨2, ![8, 1024]⟩
abbrev S8x32 : Shape := ⟨2, ![8, 32]⟩
abbrev S8x4x32x30 : Shape := ⟨4, ![8, 4, 32, 30]⟩
abbrev S8x1x1024 : Shape := ⟨3, ![8, 1, 1024]⟩
abbrev S8x32x1024 : Shape := ⟨3, ![8, 32, 1024]⟩
abbrev S8x32x1 : Shape := ⟨3, ![8, 32, 1]⟩
abbrev S8x1x32x1024 : Shape := ⟨4, ![8, 1, 32, 1024]⟩
abbrev S8x4x32 : Shape := ⟨3, ![8, 4, 32]⟩
abbrev S8x4x32x1 : Shape := ⟨4, ![8, 4, 32, 1]⟩

abbrev nBuf : Space → Nat
  | .hbm => 4
  | .vmem => 9
  | .smem => 0
  | _ => 0

abbrev bufTy : (tb : Table) → Fin (tcTables nBuf tb) → BufTy
  | .hbm, ⟨0, _⟩ => ⟨S64x4x32x4096, .f32⟩
  | .hbm, ⟨1, _⟩ => ⟨S64x4096, .i32⟩
  | .hbm, ⟨2, _⟩ => ⟨S64x32, .i32⟩
  | .hbm, ⟨3, _⟩ => ⟨S64x4x32x30, .f32⟩
  | .local _ .vmem, ⟨0, _⟩ => ⟨S8x4x32x1024, .f32⟩
  | .local _ .vmem, ⟨1, _⟩ => ⟨S8x4x32x1024, .f32⟩
  | .local _ .vmem, ⟨2, _⟩ => ⟨S8x1024, .i32⟩
  | .local _ .vmem, ⟨3, _⟩ => ⟨S8x1024, .i32⟩
  | .local _ .vmem, ⟨4, _⟩ => ⟨S8x32, .i32⟩
  | .local _ .vmem, ⟨5, _⟩ => ⟨S8x32, .i32⟩
  | .local _ .vmem, ⟨6, _⟩ => ⟨S8x4x32x30, .f32⟩
  | .local _ .vmem, ⟨7, _⟩ => ⟨S8x4x32x30, .f32⟩
  | .local _ .vmem, ⟨8, _⟩ => ⟨S8x4x32x30, .f32⟩
  | _, _ => ⟨S64x4x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32_255 : BitVec 32 := 3#32
  let v395 : BitVec 1 := Scalar.cmpi .eq arg1 c3_i32_255
  let v396 : BitVec 32 := Scalar.extui v395
  let c0_i32_256 : BitVec 32 := 0#32
  let v397 : BitVec 1 := Scalar.cmpi .ne v396 c0_i32_256
  v397

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x4x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x4x32x30 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S8x4x32x30_S8x4x32x30_0_0_0_0 : ∀ a, (![0, 0, 0, 0] : Fin 4 → Nat) a + S8x4x32x30.size a ≤ S8x4x32x30.size a
  h_S8x4x32x30 : 0 < S8x4x32x30.numel
  shapeCasts_S8x4x32x30_S8x4x32x30 : S8x4x32x30.ShapeCasts S8x4x32x30
  inb_S8x4x32x1024_S8x4x32x1024_0_0_0_0 : ∀ a, (![0, 0, 0, 0] : Fin 4 → Nat) a + S8x4x32x1024.size a ≤ S8x4x32x1024.size a
  h_S8x4x32x1024 : 0 < S8x4x32x1024.numel
  inb_S8x1024_S8x1024_0_0 : ∀ a, (![0, 0] : Fin 2 → Nat) a + S8x1024.size a ≤ S8x1024.size a
  h_S8x1024 : 0 < S8x1024.numel
  inb_S8x32_S8x32_0_0 : ∀ a, (![0, 0] : Fin 2 → Nat) a + S8x32.size a ≤ S8x32.size a
  h_S8x32 : 0 < S8x32.numel
  natLt_1_32 : 1 < 32
  shapeCasts_S8x1024_S8x1x1024 : S8x1024.ShapeCasts S8x1x1024
  shapeCasts_S8x1x1024_S8x1x1024 : S8x1x1024.ShapeCasts S8x1x1024
  broadcasts_S8x1x1024_S8x32x1024 : S8x1x1024.Broadcasts S8x32x1024
  shapeCasts_S8x32_S8x32x1 : S8x32.ShapeCasts S8x32x1
  shapeCasts_S8x32x1_S8x32x1 : S8x32x1.ShapeCasts S8x32x1
  broadcasts_S8x32x1_S8x32x1024 : S8x32x1.Broadcasts S8x32x1024
  shapeCasts_S8x32x1024_S8x1x32x1024 : S8x32x1024.ShapeCasts S8x1x32x1024
  shapeCasts_S8x1x32x1024_S8x1x32x1024 : S8x1x32x1024.ShapeCasts S8x1x32x1024
  broadcasts_S8x1x32x1024_S8x4x32x1024 : S8x1x32x1024.Broadcasts S8x4x32x1024
  reduces_S8x4x32x1024_S8x4x32 : S8x4x32x1024.Reduces [3] S8x4x32
  shapeCasts_S8x4x32_S8x4x32x1 : S8x4x32.ShapeCasts S8x4x32x1
  inb_S8x4x32x30_S8x4x32x1_0_0_0_0 : ∀ a, (![0, 0, 0, 0] : Fin 4 → Nat) a + S8x4x32x1.size a ≤ S8x4x32x30.size a
  h_S8x4x32x1 : 0 < S8x4x32x1.numel
  shapeCasts_S8x4x32x1_S8x4x32x1 : S8x4x32x1.ShapeCasts S8x4x32x1
  inb_S8x4x32x30_S8x4x32x1_0_0_0_1 : ∀ a, (![0, 0, 0, 1] : Fin 4 → Nat) a + S8x4x32x1.size a ≤ S8x4x32x30.size a
  inb_S8x4x32x30_S8x4x32x1_0_0_0_2 : ∀ a, (![0, 0, 0, 2] : Fin 4 → Nat) a + S8x4x32x1.size a ≤ S8x4x32x30.size a
  inb_S8x4x32x30_S8x4x32x1_0_0_0_3 : ∀ a, (![0, 0, 0, 3] : Fin 4 → Nat) a + S8x4x32x1.size a ≤ S8x4x32x30.size a
  inb_S8x4x32x30_S8x4x32x1_0_0_0_4 : ∀ a, (![0, 0, 0, 4] : Fin 4 → Nat) a + S8x4x32x1.size a ≤ S8x4x32x30.size a
  inb_S8x4x32x30_S8x4x32x1_0_0_0_5 : ∀ a, (![0, 0, 0, 5] : Fin 4 → Nat) a + S8x4x32x1.size a ≤ S8x4x32x30.size a
  inb_S8x4x32x30_S8x4x32x1_0_0_0_6 : ∀ a, (![0, 0, 0, 6] : Fin 4 → Nat) a + S8x4x32x1.size a ≤ S8x4x32x30.size a
  inb_S8x4x32x30_S8x4x32x1_0_0_0_7 : ∀ a, (![0, 0, 0, 7] : Fin 4 → Nat) a + S8x4x32x1.size a ≤ S8x4x32x30.size a
  inb_S8x4x32x30_S8x4x32x1_0_0_0_8 : ∀ a, (![0, 0, 0, 8] : Fin 4 → Nat) a + S8x4x32x1.size a ≤ S8x4x32x30.size a
  inb_S8x4x32x30_S8x4x32x1_0_0_0_9 : ∀ a, (![0, 0, 0, 9] : Fin 4 → Nat) a + S8x4x32x1.size a ≤ S8x4x32x30.size a
  inb_S8x4x32x30_S8x4x32x1_0_0_0_10 : ∀ a, (![0, 0, 0, 10] : Fin 4 → Nat) a + S8x4x32x1.size a ≤ S8x4x32x30.size a
  inb_S8x4x32x30_S8x4x32x1_0_0_0_11 : ∀ a, (![0, 0, 0, 11] : Fin 4 → Nat) a + S8x4x32x1.size a ≤ S8x4x32x30.size a
  inb_S8x4x32x30_S8x4x32x1_0_0_0_12 : ∀ a, (![0, 0, 0, 12] : Fin 4 → Nat) a + S8x4x32x1.size a ≤ S8x4x32x30.size a
  inb_S8x4x32x30_S8x4x32x1_0_0_0_13 : ∀ a, (![0, 0, 0, 13] : Fin 4 → Nat) a + S8x4x32x1.size a ≤ S8x4x32x30.size a
  inb_S8x4x32x30_S8x4x32x1_0_0_0_14 : ∀ a, (![0, 0, 0, 14] : Fin 4 → Nat) a + S8x4x32x1.size a ≤ S8x4x32x30.size a
  inb_S8x4x32x30_S8x4x32x1_0_0_0_15 : ∀ a, (![0, 0, 0, 15] : Fin 4 → Nat) a + S8x4x32x1.size a ≤ S8x4x32x30.size a
  inb_S8x4x32x30_S8x4x32x1_0_0_0_16 : ∀ a, (![0, 0, 0, 16] : Fin 4 → Nat) a + S8x4x32x1.size a ≤ S8x4x32x30.size a
  inb_S8x4x32x30_S8x4x32x1_0_0_0_17 : ∀ a, (![0, 0, 0, 17] : Fin 4 → Nat) a + S8x4x32x1.size a ≤ S8x4x32x30.size a
  inb_S8x4x32x30_S8x4x32x1_0_0_0_18 : ∀ a, (![0, 0, 0, 18] : Fin 4 → Nat) a + S8x4x32x1.size a ≤ S8x4x32x30.size a
  inb_S8x4x32x30_S8x4x32x1_0_0_0_19 : ∀ a, (![0, 0, 0, 19] : Fin 4 → Nat) a + S8x4x32x1.size a ≤ S8x4x32x30.size a
  inb_S8x4x32x30_S8x4x32x1_0_0_0_20 : ∀ a, (![0, 0, 0, 20] : Fin 4 → Nat) a + S8x4x32x1.size a ≤ S8x4x32x30.size a
  inb_S8x4x32x30_S8x4x32x1_0_0_0_21 : ∀ a, (![0, 0, 0, 21] : Fin 4 → Nat) a + S8x4x32x1.size a ≤ S8x4x32x30.size a
  inb_S8x4x32x30_S8x4x32x1_0_0_0_22 : ∀ a, (![0, 0, 0, 22] : Fin 4 → Nat) a + S8x4x32x1.size a ≤ S8x4x32x30.size a
  inb_S8x4x32x30_S8x4x32x1_0_0_0_23 : ∀ a, (![0, 0, 0, 23] : Fin 4 → Nat) a + S8x4x32x1.size a ≤ S8x4x32x30.size a
  inb_S8x4x32x30_S8x4x32x1_0_0_0_24 : ∀ a, (![0, 0, 0, 24] : Fin 4 → Nat) a + S8x4x32x1.size a ≤ S8x4x32x30.size a
  inb_S8x4x32x30_S8x4x32x1_0_0_0_25 : ∀ a, (![0, 0, 0, 25] : Fin 4 → Nat) a + S8x4x32x1.size a ≤ S8x4x32x30.size a
  inb_S8x4x32x30_S8x4x32x1_0_0_0_26 : ∀ a, (![0, 0, 0, 26] : Fin 4 → Nat) a + S8x4x32x1.size a ≤ S8x4x32x30.size a
  inb_S8x4x32x30_S8x4x32x1_0_0_0_27 : ∀ a, (![0, 0, 0, 27] : Fin 4 → Nat) a + S8x4x32x1.size a ≤ S8x4x32x30.size a
  inb_S8x4x32x30_S8x4x32x1_0_0_0_28 : ∀ a, (![0, 0, 0, 28] : Fin 4 → Nat) a + S8x4x32x1.size a ≤ S8x4x32x30.size a
  inb_S8x4x32x30_S8x4x32x1_0_0_0_29 : ∀ a, (![0, 0, 0, 29] : Fin 4 → Nat) a + S8x4x32x1.size a ≤ S8x4x32x30.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4x32x1024.size a ≤ S64x4x32x4096.size a
  hwx0_0 : ∀ i : grid0.Coords, EltTy.bits .f32 = 32 ∨ (Rect.block (s := S64x4x32x4096) S8x4x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S64x4096.size a
  hwx0_1 : ∀ i : grid0.Coords, EltTy.bits .i32 = 32 ∨ (Rect.block (s := S64x4096) S8x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S64x32.size a
  hwx0_2 : ∀ i : grid0.Coords, EltTy.bits .i32 = 32 ∨ (Rect.block (s := S64x32) S8x32.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4x32x30.size a ≤ S64x4x32x30.size a
  hwx0_3 : ∀ i : grid0.Coords, EltTy.bits .f32 = 32 ∨ (Rect.block (s := S64x4x32x30) S8x4x32x30.size (cc0_transform_3 i) (hinb0_3 i)).WholeWords (EltTy.packing .f32)

variable [Facts₀]

abbrev win0_0 : Pipeline.Window sig grid0 :=
  Pipeline.Window.ofSpec (Memref.whole main_arg0) S8x4x32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x4x32x30.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x4x32x4096 : Shape := ⟨4, ![64, 4, 32, 4096]⟩
abbrev S64x4096 : Shape := ⟨2, ![64, 4096]⟩
abbrev S64x32 : Shape := ⟨2, ![64, 32]⟩
abbrev S_ : Shape := ⟨0, ![]⟩
abbrev S64x1x4096 : Shape := ⟨3, ![64, 1, 4096]⟩
abbrev S64x32x1 : Shape := ⟨3, ![64, 32, 1]⟩
abbrev S64x32x4096 : Shape := ⟨3, ![64, 32, 4096]⟩
abbrev S64x1x32x4096 : Shape := ⟨4, ![64, 1, 32, 4096]⟩
abbrev S8192 : Shape := ⟨1, ![8192]⟩
abbrev S64x4x32x1 : Shape := ⟨4, ![64, 4, 32, 1]⟩
abbrev S33554432 : Shape := ⟨1, ![33554432]⟩
abbrev S245760 : Shape := ⟨1, ![245760]⟩
abbrev S33554432x1 : Shape := ⟨2, ![33554432, 1]⟩
abbrev S64x4x32x30 : Shape := ⟨4, ![64, 4, 32, 30]⟩

abbrev nBuf : Space → Nat
  | .hbm => 60
  | .vmem => 0
  | .smem => 0
  | _ => 0

abbrev bufTy : (tb : Table) → Fin (tcTables nBuf tb) → BufTy
  | .hbm, ⟨0, _⟩ => ⟨S64x4x32x4096, .f32⟩
  | .hbm, ⟨1, _⟩ => ⟨S64x4096, .i32⟩
  | .hbm, ⟨2, _⟩ => ⟨S64x32, .i32⟩
  | .hbm, ⟨3, _⟩ => ⟨S_, .f32⟩
  | .hbm, ⟨4, _⟩ => ⟨S64x4x32x4096, .f32⟩
  | .hbm, ⟨5, _⟩ => ⟨S64x4x32x4096, .f32⟩
  | .hbm, ⟨6, _⟩ => ⟨S_, .f32⟩
  | .hbm, ⟨7, _⟩ => ⟨S64x4x32x4096, .f32⟩
  | .hbm, ⟨8, _⟩ => ⟨S64x4x32x4096, .f32⟩
  | .hbm, ⟨9, _⟩ => ⟨S_, .f32⟩
  | .hbm, ⟨10, _⟩ => ⟨S64x4x32x4096, .f32⟩
  | .hbm, ⟨11, _⟩ => ⟨S64x4x32x4096, .f32⟩
  | .hbm, ⟨12, _⟩ => ⟨S64x4x32x4096, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x4x32x4096, .i32⟩
  | .hbm, ⟨17, _⟩ => ⟨S64x4x32x4096, .i32⟩
  | .hbm, ⟨18, _⟩ => ⟨S_, .i32⟩
  | .hbm, ⟨19, _⟩ => ⟨S64x4x32x4096, .i32⟩
  | .hbm, ⟨20, _⟩ => ⟨S64x4x32x4096, .i32⟩
  | .hbm, ⟨21, _⟩ => ⟨S_, .i32⟩
  | .hbm, ⟨22, _⟩ => ⟨S64x4096, .i32⟩
  | .hbm, ⟨23, _⟩ => ⟨S64x4096, .i1⟩
  | .hbm, ⟨24, _⟩ => ⟨S64x1x4096, .i1⟩
  | .hbm, ⟨25, _⟩ => ⟨S_, .i32⟩
  | .hbm, ⟨26, _⟩ => ⟨S64x32, .i32⟩
  | .hbm, ⟨27, _⟩ => ⟨S64x32, .i1⟩
  | .hbm, ⟨28, _⟩ => ⟨S64x32x1, .i1⟩
  | .hbm, ⟨29, _⟩ => ⟨S64x32x4096, .i1⟩
  | .hbm, ⟨30, _⟩ => ⟨S64x32x4096, .i1⟩
  | .hbm, ⟨31, _⟩ => ⟨S64x32x4096, .i1⟩
  | .hbm, ⟨32, _⟩ => ⟨S64x32x4096, .f32⟩
  | .hbm, ⟨33, _⟩ => ⟨S64x1x32x4096, .f32⟩
  | .hbm, ⟨34, _⟩ => ⟨S64x4x32x4096, .f32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S64x4x32x1, .i32⟩
  | .hbm, ⟨40, _⟩ => ⟨S64x4x32x4096, .i32⟩
  | .hbm, ⟨41, _⟩ => ⟨S64x4x32x4096, .i32⟩
  | .hbm, ⟨42, _⟩ => ⟨S33554432, .i32⟩
  | .hbm, ⟨43, _⟩ => ⟨S_, .f32⟩
  | .hbm, ⟨44, _⟩ => ⟨S245760, .f32⟩
  | .hbm, ⟨45, _⟩ => ⟨S33554432, .f32⟩
  | .hbm, ⟨46, _⟩ => ⟨S_, .i32⟩
  | .hbm, ⟨47, _⟩ => ⟨S33554432, .i32⟩
  | .hbm, ⟨48, _⟩ => ⟨S33554432, .i1⟩
  | .hbm, ⟨49, _⟩ => ⟨S_, .i32⟩
  | .hbm, ⟨50, _⟩ => ⟨S33554432, .i32⟩
  | .hbm, ⟨51, _⟩ => ⟨S33554432, .i32⟩
  | .hbm, ⟨52, _⟩ => ⟨S33554432, .i32⟩
  | .hbm, ⟨53, _⟩ => ⟨S33554432x1, .i32⟩
  | .hbm, ⟨54, _⟩ => ⟨S245760, .f32⟩
  | .hbm, ⟨55, _⟩ => ⟨S64x4x32x30, .f32⟩
  | .hbm, ⟨56, _⟩ => ⟨S_, .f32⟩
  | .hbm, ⟨57, _⟩ => ⟨S64x4x32x30, .f32⟩
  | .hbm, ⟨58, _⟩ => ⟨S64x4x32x30, .f32⟩
  | .hbm, ⟨59, _⟩ => ⟨S64x4x32x30, .f32⟩
  | _, _ => ⟨S64x4x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  bcast_S_S64x4x32x4096 : S_.BroadcastsInDim S64x4x32x4096 (![] : Fin 0 → Fin S64x4x32x4096.rank)
  bcast_S_S64x4096 : S_.BroadcastsInDim S64x4096 (![] : Fin 0 → Fin S64x4096.rank)
  bcast_S64x4096_S64x1x4096_0_2 : S64x4096.BroadcastsInDim S64x1x4096 (![0, 2] : Fin 2 → Fin S64x1x4096.rank)
  bcast_S_S64x32 : S_.BroadcastsInDim S64x32 (![] : Fin 0 → Fin S64x32.rank)
  bcast_S64x32_S64x32x1_0_1 : S64x32.BroadcastsInDim S64x32x1 (![0, 1] : Fin 2 → Fin S64x32x1.rank)
  bcast_S64x1x4096_S64x32x4096_0_1_2 : S64x1x4096.BroadcastsInDim S64x32x4096 (![0, 1, 2] : Fin 3 → Fin S64x32x4096.rank)
  bcast_S64x32x1_S64x32x4096_0_1_2 : S64x32x1.BroadcastsInDim S64x32x4096 (![0, 1, 2] : Fin 3 → Fin S64x32x4096.rank)
  bcast_S64x32x4096_S64x1x32x4096_0_2_3 : S64x32x4096.BroadcastsInDim S64x1x32x4096 (![0, 2, 3] : Fin 3 → Fin S64x1x32x4096.rank)
  bcast_S64x1x32x4096_S64x4x32x4096_0_1_2_3 : S64x1x32x4096.BroadcastsInDim S64x4x32x4096 (![0, 1, 2, 3] : Fin 4 → Fin S64x4x32x4096.rank)
  bcast_S_S8192 : S_.BroadcastsInDim S8192 (![] : Fin 0 → Fin S8192.rank)
  shapeCasts_S8192_S64x4x32x1 : S8192.ShapeCasts S64x4x32x1
  bcast_S64x4x32x1_S64x4x32x4096_0_1_2_3 : S64x4x32x1.BroadcastsInDim S64x4x32x4096 (![0, 1, 2, 3] : Fin 4 → Fin S64x4x32x4096.rank)
  shapeCasts_S64x4x32x4096_S33554432 : S64x4x32x4096.ShapeCasts S33554432
  bcast_S_S245760 : S_.BroadcastsInDim S245760 (![] : Fin 0 → Fin S245760.rank)
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S245760_S64x4x32x30 : S245760.ShapeCasts S64x4x32x30
  bcast_S_S64x4x32x30 : S_.BroadcastsInDim S64x4x32x30 (![] : Fin 0 → Fin S64x4x32x30.rank)
  scatter_S245760_S33554432x1_S33554432_n_0_0_1_wf : ScatterDims.WF S245760 S33554432x1 S33554432 [] [0] [0] 1

variable [Facts₀]

def scatter_S245760_S33554432x1_S33554432_n_0_0_1 : ScatterDims S245760 S33554432x1 S33554432 where
  updateWindowDims := []
  insertedWindowDims := [0]
  scatterDimsToOperandDims := [0]
  indexVectorDim := 1
  wf := scatter_S245760_S33554432x1_S33554432_n_0_0_1_wf

class Facts : Prop extends Facts₀ where

variable [Facts]
-- ==== Proof.KernelCols.lean ====
/-
  The kernel's accumulator, one bin column at a time.

  The body keeps a `[8, 4, 32, 30]` accumulator and, for each bin `k = 0 … 29` in turn, loads column `k` of it, adds to it
  the row sums of (indicator of bin `k`) · (pair weight) over the block's `1024` document positions, and stores the column
  back. `binStep` is that one column update as a function of the column loaded; `stepG` is the whole accumulator after
  the thirty updates, as ONE function of the accumulator before them: entry `(b, c, q, k)` only ever sees column `k`.
  The thirty stores, listed last first, are then blocks of `stepG`: two list shapes occur — the loads read the carried
  accumulator directly, or they read back a fill of the whole buffer made just before — and in both the contents the
  stores leave are `stepG` of the accumulator they started from.
-/
import proofs.«120851_j24816321036869_1_alg».proof.Proof.Gen.KernelIdeal.Skeleton
import Idealize.ShloMosaic.Lib.ValueIdx
import Idealize.ShloMosaic.Lib.Pipeline.Value

noncomputable section

namespace Cert.KernelIdeal.Cols

open Cert.KernelIdeal Cert.KernelIdeal.Gen Idealize.ShloMosaic Idealize.ShloMosaic.ValueIdx

variable {F : FTy → Type} [FloatOps F]

/-- One bin's update of its column: the column loaded, plus the row sums over the block's document positions of
    (indicator that the clipped bin word equals `K`) · weight. -/
def binStep (K : BitVec 32) (v16 : IVec S8x4x32x1024 32) (v34 : FVec F S8x4x32x1024 .f32) (vload : Vec F S8x4x32x1 .f32) :
    FVec F S8x4x32x1 .f32 :=
  shapeCast S8x4x32x1
    (addf vload
      (shapeCast S8x4x32x1
        (multiReduction .add [3] S8x4x32
          (mulf (sitofp .f32 (extui 32 (cmpi .eq v16 (broadcast S8x4x32x1024 K)) natLt_1_32)) v34)
          0x00000000#32 reduces_S8x4x32x1024_S8x4x32 (.inl rfl) rfl)
        shapeCasts_S8x4x32_S8x4x32x1))
    shapeCasts_S8x4x32x1_S8x4x32x1

/-- Column `k` of an accumulator. -/
def colOf (acc : Vec F S8x4x32x30 .f32) (k : Fin 30) : Vec F S8x4x32x1 .f32 :=
  fun z => acc (ix4 (z 0 : Fin 8) (z 1 : Fin 4) (z 2 : Fin 32) k)

/-- The accumulator after the thirty column updates, as one function of the accumulator before them. -/
def stepG (v16 : IVec S8x4x32x1024 32) (v34 : FVec F S8x4x32x1024 .f32) (acc : Vec F S8x4x32x30 .f32) :
    Vec F S8x4x32x30 .f32 :=
  fun y => binStep (BitVec.ofNat 32 (y 3).val) v16 v34 (colOf acc (y 3)) (ix4 (y 0 : Fin 8) (y 1 : Fin 4) (y 2 : Fin 32) (0 : Fin 1))

theorem hz4 : (![0, 0, 0, 0] : Fin 4 → Nat) = fun _ => 0 := funext fun a => by fin_cases a <;> rfl

/-- The rectangle of column `n` places its index `(b, c, q, 0)` at `(b, c, q, n)`. -/
theorem emb_col (n : Nat) (hn : n < 30)
    (inb : ∀ a, (![0, 0, 0, n] : Fin 4 → Nat) a + (![8, 4, 32, 1] : Fin 4 → Nat) a ≤ S8x4x32x30.size a) (j : S8x4x32x1.Idx) :
    (Rect.unit (s := S8x4x32x30) ![0, 0, 0, n] ![8, 4, 32, 1] inb).emb j
      = ix4 (j 0 : Fin 8) (j 1 : Fin 4) (j 2 : Fin 32) (⟨n, hn⟩ : Fin 30) := by
  funext a
  apply Fin.ext
  match a with
  | ⟨0, _⟩ => show 0 + 1 * (j 0).val = (j 0).val; omega
  | ⟨1, _⟩ => show 0 + 1 * (j 1).val = (j 1).val; omega
  | ⟨2, _⟩ => show 0 + 1 * (j 2).val = (j 2).val; omega
  | ⟨3, _⟩ =>
    show n + 1 * (j 3).val = n
    have h : (j 3).val < 1 := (j 3).isLt
    omega

/-- An index lies in column `n`'s rectangle exactly when its last coordinate is `n`. -/
theorem mem_col_iff (n : Nat) (hn : n < 30)
    (inb : ∀ a, (![0, 0, 0, n] : Fin 4 → Nat) a + (![8, 4, 32, 1] : Fin 4 → Nat) a ≤ S8x4x32x30.size a) (y : S8x4x32x30.Idx) :
    y ∈ (Rect.unit (s := S8x4x32x30) ![0, 0, 0, n] ![8, 4, 32, 1] inb).set ↔ (y 3).val = n := by
  rw [Rect.mem_set_unit]
  constructor
  · intro h
    have h3 := h 3
    have e1 : (![0, 0, 0, n] : Fin 4 → Nat) 3 = n := rfl
    have e2 : (![8, 4, 32, 1] : Fin 4 → Nat) 3 = 1 := rfl
    rw [e1, e2] at h3
    omega
  · intro h a
    have h0 : (y 0).val < 8 := (y 0).isLt
    have h1 : (y 1).val < 4 := (y 1).isLt
    have h2 : (y 2).val < 32 := (y 2).isLt
    match a with
    | ⟨0, _⟩ => exact ⟨Nat.zero_le _, by show (y 0).val < 0 + 8; omega⟩
    | ⟨1, _⟩ => exact ⟨Nat.zero_le _, by show (y 1).val < 0 + 4; omega⟩
    | ⟨2, _⟩ => exact ⟨Nat.zero_le _, by show (y 2).val < 0 + 32; omega⟩
    | ⟨3, _⟩ => exact ⟨by show n ≤ (y 3).val; omega, by show (y 3).val < n + 1; omega⟩

/-- An index whose last coordinate is `n` is the image of `(y₀, y₁, y₂, 0)` under column `n`'s rectangle. -/
theorem eq_emb_col (n : Nat) (hn : n < 30)
    (inb : ∀ a, (![0, 0, 0, n] : Fin 4 → Nat) a + (![8, 4, 32, 1] : Fin 4 → Nat) a ≤ S8x4x32x30.size a) (y : S8x4x32x30.Idx)
    (hy : (y 3).val = n) :
    (Rect.unit (s := S8x4x32x30) ![0, 0, 0, n] ![8, 4, 32, 1] inb).emb
        (ix4 (y 0 : Fin 8) (y 1 : Fin 4) (y 2 : Fin 32) (0 : Fin 1)) = y := by
  rw [emb_col n hn inb]
  funext a
  match a with
  | ⟨0, _⟩ => rfl
  | ⟨1, _⟩ => rfl
  | ⟨2, _⟩ => rfl
  | ⟨3, _⟩ => exact Fin.ext hy.symm

/-- A load of the accumulator through column `n`'s rectangle reads column `n`. -/
theorem ld_col (n : Nat) (hn : n < 30)
    (inb : ∀ a, (![0, 0, 0, n] : Fin 4 → Nat) a + (![8, 4, 32, 1] : Fin 4 → Nat) a ≤ S8x4x32x30.size a)
    (acc : Vec F S8x4x32x30 .f32) :
    View.ld acc (Rect.unit (s := S8x4x32x30) ![0, 0, 0, n] ![8, 4, 32, 1] inb) = colOf acc ⟨n, hn⟩ :=
  funext fun z => congrArg acc (emb_col n hn inb z)

/-- What column `n`'s store holds is `stepG` at the indices it covers. -/
theorem binStep_col (n : Nat) (hn : n < 30) (v16 : IVec S8x4x32x1024 32) (v34 : FVec F S8x4x32x1024 .f32)
    (acc : Vec F S8x4x32x30 .f32) (y : S8x4x32x30.Idx) (hy : (y 3).val = n) :
    binStep (BitVec.ofNat 32 n) v16 v34 (colOf acc ⟨n, hn⟩) (ix4 (y 0 : Fin 8) (y 1 : Fin 4) (y 2 : Fin 32) (0 : Fin 1))
      = stepG v16 v34 acc y := by
  have hy3 : y 3 = (⟨n, hn⟩ : Fin 30) := Fin.ext hy
  unfold stepG
  rw [hy3]

/-! ## Thirty stores whose loads read the carried accumulator -/

/-- Columns `n − 1, …, 0`, last first, each store holding `binStep` of the accumulator's own column. -/
inductive ColsB (v16 : IVec S8x4x32x1024 32) (v34 : FVec F S8x4x32x1024 .f32) (acc : Vec F S8x4x32x30 .f32) :
    Nat → List (View.Piece (Elt F) S8x4x32x30 .f32) → Prop
  | nil : ColsB v16 v34 acc 0 []
  | cons (n : Nat) (L : List (View.Piece (Elt F) S8x4x32x30 .f32)) (h : ColsB v16 v34 acc n L)
      (inb : ∀ a, (![0, 0, 0, n] : Fin 4 → Nat) a + (![8, 4, 32, 1] : Fin 4 → Nat) a ≤ S8x4x32x30.size a)
      (pay : FVec F S8x4x32x1 .f32)
      (hpay : pay = binStep (BitVec.ofNat 32 n) v16 v34
        (View.ld acc (Rect.unit (s := S8x4x32x30) ![0, 0, 0, n] ![8, 4, 32, 1] inb))) :
      ColsB v16 v34 acc (n + 1) (⟨Rect.unit (s := S8x4x32x30) ![0, 0, 0, n] ![8, 4, 32, 1] inb, pay⟩ :: L)

/-- Such a list leaves `stepG` of the accumulator at every index of its columns. -/
theorem ColsB.canon_eq {v16 : IVec S8x4x32x1024 32} {v34 : FVec F S8x4x32x1024 .f32} {acc : Vec F S8x4x32x30 .f32}
    {n : Nat} {L : List (View.Piece (Elt F) S8x4x32x30 .f32)} (h : ColsB v16 v34 acc n L) :
    n ≤ 30 → ∀ y : S8x4x32x30.Idx, (y 3).val < n → View.canon L y = stepG v16 v34 acc y := by
  induction h with
  | nil => intro _ y hy; exact absurd hy (Nat.not_lt_zero _)
  | cons n L h inb pay hpay ih =>
    intro hn y hy
    have hn' : n < 30 := by omega
    by_cases hyn : (y 3).val = n
    · have e := View.canon_cons_emb (Rect.unit (s := S8x4x32x30) ![0, 0, 0, n] ![8, 4, 32, 1] inb) pay L
        (ix4 (y 0 : Fin 8) (y 1 : Fin 4) (y 2 : Fin 32) (0 : Fin 1))
      rw [eq_emb_col n hn' inb y hyn] at e
      rw [e, hpay, ld_col n hn' inb acc]
      exact binStep_col n hn' v16 v34 acc y hyn
    · have hnm : y ∉ (Rect.unit (s := S8x4x32x30) ![0, 0, 0, n] ![8, 4, 32, 1] inb).set :=
        fun hm => hyn ((mem_col_iff n hn' inb y).mp hm)
      rw [View.canon_cons_of_not_mem
        (⟨Rect.unit (s := S8x4x32x30) ![0, 0, 0, n] ![8, 4, 32, 1] inb, pay⟩ : View.Piece (Elt F) S8x4x32x30 .f32) L hnm]
      exact ih (by omega) y (by omega)

/-! ## Thirty stores after a fill of the whole buffer, their loads reading the buffer back -/

/-- A store of `base` through the whole buffer, then columns `0, …, n − 1`, listed last first; each column's store holds
    `binStep` of what a load of that column reads after the stores made before it. -/
inductive ColsA (v : View sig .tc .vmem S8x4x32x30 .f32) (v16 : IVec S8x4x32x1024 32) (v34 : FVec F S8x4x32x1024 .f32)
    (base : Vec F S8x4x32x30 .f32) : Nat → List (View.Piece (Elt F) S8x4x32x30 .f32) → Prop
  | base (inb0 : ∀ a, (![0, 0, 0, 0] : Fin 4 → Nat) a + S8x4x32x30.size a ≤ S8x4x32x30.size a) :
      ColsA v v16 v34 base 0 [⟨Rect.unit (s := S8x4x32x30) ![0, 0, 0, 0] S8x4x32x30.size inb0, base⟩]
  | cons (n : Nat) (L : List (View.Piece (Elt F) S8x4x32x30 .f32)) (h : ColsA v v16 v34 base n L)
      (inb : ∀ a, (![0, 0, 0, n] : Fin 4 → Nat) a + (![8, 4, 32, 1] : Fin 4 → Nat) a ≤ S8x4x32x30.size a)
      (pay : FVec F S8x4x32x1 .f32)
      (hpay : pay = binStep (BitVec.ofNat 32 n) v16 v34
        (v.readCov L (Rect.unit (s := S8x4x32x30) ![0, 0, 0, n] ![8, 4, 32, 1] inb).toLoadRect)) :
      ColsA v v16 v34 base (n + 1) (⟨Rect.unit (s := S8x4x32x30) ![0, 0, 0, n] ![8, 4, 32, 1] inb, pay⟩ :: L)

/-- Such a list leaves `stepG` of `base` on the columns already updated and `base` on the others. -/
theorem ColsA.canon_eq {v : View sig .tc .vmem S8x4x32x30 .f32} {v16 : IVec S8x4x32x1024 32}
    {v34 : FVec F S8x4x32x1024 .f32} {base : Vec F S8x4x32x30 .f32}
    {n : Nat} {L : List (View.Piece (Elt F) S8x4x32x30 .f32)} (h : ColsA v v16 v34 base n L) :
    n ≤ 30 → ∀ y : S8x4x32x30.Idx, View.canon L y = if (y 3).val < n then stepG v16 v34 base y else base y := by
  induction h with
  | base inb0 =>
    intro _ y
    rw [if_neg (Nat.not_lt_zero _)]
    exact congrFun (View.canon_unit_zero (S := S8x4x32x30) hz4 inb0 base) y
  | cons n L h inb pay hpay ih =>
    intro hn y
    have hn' : n < 30 := by omega
    by_cases hyn : (y 3).val = n
    · have e := View.canon_cons_emb (Rect.unit (s := S8x4x32x30) ![0, 0, 0, n] ![8, 4, 32, 1] inb) pay L
        (ix4 (y 0 : Fin 8) (y 1 : Fin 4) (y 2 : Fin 32) (0 : Fin 1))
      rw [eq_emb_col n hn' inb y hyn] at e
      have hload : v.readCov L (Rect.unit (s := S8x4x32x30) ![0, 0, 0, n] ![8, 4, 32, 1] inb).toLoadRect
          = colOf base ⟨n, hn'⟩ := by
        rw [View.readCov_eq_canon']
        funext z
        have hz := emb_col n hn' inb z
        show View.canon L ((Rect.unit (s := S8x4x32x30) ![0, 0, 0, n] ![8, 4, 32, 1] inb).emb z) = _
        rw [ih (by omega), hz, if_neg (by show ¬ n < n; omega)]
        rfl
      rw [e, hpay, hload, if_pos (by omega)]
      exact binStep_col n hn' v16 v34 base y hyn
    · have hnm : y ∉ (Rect.unit (s := S8x4x32x30) ![0, 0, 0, n] ![8, 4, 32, 1] inb).set :=
        fun hm => hyn ((mem_col_iff n hn' inb y).mp hm)
      rw [View.canon_cons_of_not_mem
        (⟨Rect.unit (s := S8x4x32x30) ![0, 0, 0, n] ![8, 4, 32, 1] inb, pay⟩ : View.Piece (Elt F) S8x4x32x30 .f32) L hnm,
        ih (by omega)]
      by_cases hlt : (y 3).val < n
      · rw [if_pos hlt, if_pos (by omega)]
      · rw [if_neg hlt, if_neg (by omega)]

end Cert.KernelIdeal.Cols

end
-- ==== Proof.KernelPieces.lean ====
/-
  What one grid point leaves in the carried accumulator and in the output block, case by case.

  At a point where the D-axis coordinate is `0` the body first fills the accumulator with zeros and then makes the thirty
  column updates, whose loads read that fill back; elsewhere the thirty updates read the accumulator the point before
  left; at the last D-coordinate the body also stores `log (accumulator + ε)` into the output block. In every case the
  thirty stores are the column list of `KernelCols`, so the accumulator after the point is `stepG` of the accumulator
  the updates started from (zeros, or what the point before left), as one function of the point's input blocks.
-/
import proofs.«120851_j24816321036869_1_alg».proof.Proof.Gen.KernelIdeal.Frame
import proofs.«120851_j24816321036869_1_alg».proof.Proof.KernelCols
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.Cols
open Idealize.ShloMosaic Idealize.ShloMosaic.TcCoe Idealize.ShloMosaic.Tactic Idealize.SL.Sem Idealize.ShloMosaic.ValueIdx

variable {F : FTy → Type} [FloatOps F]

theorem hz2 : (![0, 0] : Fin 2 → Nat) = fun _ => 0 := funext fun a => by fin_cases a <;> rfl

/-- The bin words and the weights are computed from the input blocks as loaded whole. -/
theorem loads_whole (arg2 : Memref sig .tc .vmem S8x4x32x1024 .f32) (harg2 : arg2.IsWhole)
    (arg3 : Memref sig .tc .vmem S8x1024 .i32) (harg3 : arg3.IsWhole) (arg4 : Memref sig .tc .vmem S8x32 .i32)
    (harg4 : arg4.IsWhole) (x0 : Vec F S8x4x32x1024 .f32) (x1 : Vec F S8x1024 .i32) (x2 : Vec F S8x32 .i32) :
    (k0_pay5 (View.readAt (Elt F) arg2.view (Rect.unit ![0, 0, 0, 0] S8x4x32x1024.size inb_S8x4x32x1024_S8x4x32x1024_0_0_0_0).toLoadRect (harg2.unread x0))) = k0_pay5 x0 ∧ (k0_pay6 (View.readAt (Elt F) arg3.view (Rect.unit ![0, 0] S8x1024.size inb_S8x1024_S8x1024_0_0).toLoadRect (harg3.unread x1)) (View.readAt (Elt F) arg4.view (Rect.unit ![0, 0] S8x32.size inb_S8x32_S8x32_0_0).toLoadRect (harg4.unread x2))) = k0_pay6 x1 x2 := by
  constructor
  · simp only [View.readAt_eq_ld, harg2.read_unread, View.ld_unit_zero (S := S8x4x32x1024) hz4]
  · simp only [View.readAt_eq_ld, harg3.read_unread, harg4.read_unread, View.ld_unit_zero (S := S8x1024) hz2,
      View.ld_unit_zero (S := S8x32) hz2]

/-- A point in the middle of the D axis: the accumulator the point before left, after the thirty updates. -/
theorem sout_B (c : Dev nD) (i : grid0.Coords) (arg2 : Memref sig .tc .vmem S8x4x32x1024 .f32) (harg2 : arg2.IsWhole) (arg3 : Memref sig .tc .vmem S8x1024 .i32) (harg3 : arg3.IsWhole) (arg4 : Memref sig .tc .vmem S8x32 .i32) (harg4 : arg4.IsWhole) (arg5 : Memref sig .tc .vmem S8x4x32x30 .f32) (harg5 : arg5.IsWhole) (arg6 : Memref sig .tc .vmem S8x4x32x30 .f32) (harg6 : arg6.IsWhole) (hc0 : ¬cond0_0 i) (hc1 : ¬cond0_1 i)
    (x0 : Vec F S8x4x32x1024 .f32) (x1 : Vec F S8x1024 .i32) (x2 : Vec F S8x32 .i32) (xs0 : Vec F S8x4x32x30 .f32) :
    sout0_B_0 c i arg2 harg2 arg3 harg3 arg4 harg4 arg5 harg5 arg6 harg6 hc0 hc1 x0 x1 x2 xs0 = stepG (k0_pay5 x0) (k0_pay6 x1 x2) xs0 := by
  unfold sout0_B_0
  rw [View.read_writes_eq_canon _ _ _ (scover0_B_0 c i arg2 harg2 arg3 harg3 arg4 harg4 arg5 harg5 arg6 harg6 hc0 hc1 x0 x1 x2 xs0)]
  have hcols : ColsB (k0_pay5 (View.readAt (Elt F) arg2.view (Rect.unit ![0, 0, 0, 0] S8x4x32x1024.size inb_S8x4x32x1024_S8x4x32x1024_0_0_0_0).toLoadRect (harg2.unread x0))) (k0_pay6 (View.readAt (Elt F) arg3.view (Rect.unit ![0, 0] S8x1024.size inb_S8x1024_S8x1024_0_0).toLoadRect (harg3.unread x1)) (View.readAt (Elt F) arg4.view (Rect.unit ![0, 0] S8x32.size inb_S8x32_S8x32_0_0).toLoadRect (harg4.unread x2))) (arg6.view.read (Elt F) (harg6.unread xs0)) 30
      (kernelRun0_B c i arg2 harg2 arg3 harg3 arg4 harg4 arg5 harg5 arg6 harg6 hc0 hc1 x0 x1 x2 xs0).2.1 := by
    unfold kernelRun0_B
    dsimp only
    sl_unfold_words
    repeat (refine ColsB.cons _ _ ?_ _ _ rfl)
    exact ColsB.nil
  funext y
  rw [hcols.canon_eq (Nat.le_refl _) y (y 3).isLt, (loads_whole arg2 harg2 arg3 harg3 arg4 harg4 x0 x1 x2).1,
    (loads_whole arg2 harg2 arg3 harg3 arg4 harg4 x0 x1 x2).2, harg6.read_unread]

/-- The last point of the D axis leaves the same in the accumulator … -/
theorem sout_C (c : Dev nD) (i : grid0.Coords) (arg2 : Memref sig .tc .vmem S8x4x32x1024 .f32) (harg2 : arg2.IsWhole) (arg3 : Memref sig .tc .vmem S8x1024 .i32) (harg3 : arg3.IsWhole) (arg4 : Memref sig .tc .vmem S8x32 .i32) (harg4 : arg4.IsWhole) (arg5 : Memref sig .tc .vmem S8x4x32x30 .f32) (harg5 : arg5.IsWhole) (arg6 : Memref sig .tc .vmem S8x4x32x30 .f32) (harg6 : arg6.IsWhole) (hc0 : ¬cond0_0 i) (hc1 : cond0_1 i)
    (x0 : Vec F S8x4x32x1024 .f32) (x1 : Vec F S8x1024 .i32) (x2 : Vec F S8x32 .i32) (xs0 : Vec F S8x4x32x30 .f32) :
    sout0_C_0 c i arg2 harg2 arg3 harg3 arg4 harg4 arg5 harg5 arg6 harg6 hc0 hc1 x0 x1 x2 xs0 = stepG (k0_pay5 x0) (k0_pay6 x1 x2) xs0 := by
  unfold sout0_C_0
  rw [View.read_writes_eq_canon _ _ _ (scover0_C_0 c i arg2 harg2 arg3 harg3 arg4 harg4 arg5 harg5 arg6 harg6 hc0 hc1 x0 x1 x2 xs0)]
  have hcols : ColsB (k0_pay5 (View.readAt (Elt F) arg2.view (Rect.unit ![0, 0, 0, 0] S8x4x32x1024.size inb_S8x4x32x1024_S8x4x32x1024_0_0_0_0).toLoadRect (harg2.unread x0))) (k0_pay6 (View.readAt (Elt F) arg3.view (Rect.unit ![0, 0] S8x1024.size inb_S8x1024_S8x1024_0_0).toLoadRect (harg3.unread x1)) (View.readAt (Elt F) arg4.view (Rect.unit ![0, 0] S8x32.size inb_S8x32_S8x32_0_0).toLoadRect (harg4.unread x2))) (arg6.view.read (Elt F) (harg6.unread xs0)) 30
      (kernelRun0_C c i arg2 harg2 arg3 harg3 arg4 harg4 arg5 harg5 arg6 harg6 hc0 hc1 x0 x1 x2 xs0).2.1 := by
    unfold kernelRun0_C
    dsimp only
    sl_unfold_words
    repeat (refine ColsB.cons _ _ ?_ _ _ rfl)
    exact ColsB.nil
  funext y
  rw [hcols.canon_eq (Nat.le_refl _) y (y 3).isLt, (loads_whole arg2 harg2 arg3 harg3 arg4 harg4 x0 x1 x2).1,
    (loads_whole arg2 harg2 arg3 harg3 arg4 harg4 x0 x1 x2).2, harg6.read_unread]

/-- … and stores into the output block `log (· + ε)` of the accumulator it has just completed. -/
theorem out_C (c : Dev nD) (i : grid0.Coords) (arg2 : Memref sig .tc .vmem S8x4x32x1024 .f32) (harg2 : arg2.IsWhole) (arg3 : Memref sig .tc .vmem S8x1024 .i32) (harg3 : arg3.IsWhole) (arg4 : Memref sig .tc .vmem S8x32 .i32) (harg4 : arg4.IsWhole) (arg5 : Memref sig .tc .vmem S8x4x32x30 .f32) (harg5 : arg5.IsWhole) (arg6 : Memref sig .tc .vmem S8x4x32x30 .f32) (harg6 : arg6.IsWhole) (hc0 : ¬cond0_0 i) (hc1 : cond0_1 i)
    (x0 : Vec F S8x4x32x1024 .f32) (x1 : Vec F S8x1024 .i32) (x2 : Vec F S8x32 .i32) (xs0 : Vec F S8x4x32x30 .f32) :
    out0_C_3 c i arg2 harg2 arg3 harg3 arg4 harg4 arg5 harg5 arg6 harg6 hc0 hc1 x0 x1 x2 xs0 = k0_pay3 (stepG (k0_pay5 x0) (k0_pay6 x1 x2) xs0) := by
  unfold out0_C_3
  rw [View.read_writes_eq_canon _ _ _ (cover0_C_3 c i arg2 harg2 arg3 harg3 arg4 harg4 arg5 harg5 arg6 harg6 hc0 hc1 x0 x1 x2 xs0)]
  have hcols : ∀ (L : List (View.Piece (Elt F) S8x4x32x30 .f32)),
      ColsB (k0_pay5 (View.readAt (Elt F) arg2.view (Rect.unit ![0, 0, 0, 0] S8x4x32x1024.size inb_S8x4x32x1024_S8x4x32x1024_0_0_0_0).toLoadRect (harg2.unread x0))) (k0_pay6 (View.readAt (Elt F) arg3.view (Rect.unit ![0, 0] S8x1024.size inb_S8x1024_S8x1024_0_0).toLoadRect (harg3.unread x1)) (View.readAt (Elt F) arg4.view (Rect.unit ![0, 0] S8x32.size inb_S8x32_S8x32_0_0).toLoadRect (harg4.unread x2))) (arg6.view.read (Elt F) (harg6.unread xs0)) 30 L →
      ∀ (inb0 : ∀ a, (![0, 0, 0, 0] : Fin 4 → Nat) a + S8x4x32x30.size a ≤ S8x4x32x30.size a),
      View.canon [(⟨Rect.unit (s := S8x4x32x30) ![0, 0, 0, 0] S8x4x32x30.size inb0,
          k0_pay3 (arg6.view.readCov L (Rect.unit (s := S8x4x32x30) ![0, 0, 0, 0] S8x4x32x30.size inb0).toLoadRect)⟩ :
            View.Piece (Elt F) S8x4x32x30 .f32)]
        = k0_pay3 (stepG (k0_pay5 x0) (k0_pay6 x1 x2) xs0) := by
    intro L hL inb0
    rw [View.canon_unit_zero (S := S8x4x32x30) hz4, View.readCov_eq_canon']
    have e : (fun j => View.canon L ((Rect.unit (s := S8x4x32x30) ![0, 0, 0, 0] S8x4x32x30.size inb0).toLoadRect.idx j))
        = stepG (k0_pay5 x0) (k0_pay6 x1 x2) xs0 := by
      have e1 : View.canon L = stepG (k0_pay5 x0) (k0_pay6 x1 x2) xs0 := by
        funext y
        rw [hL.canon_eq (Nat.le_refl _) y (y 3).isLt, (loads_whole arg2 harg2 arg3 harg3 arg4 harg4 x0 x1 x2).1,
          (loads_whole arg2 harg2 arg3 harg3 arg4 harg4 x0 x1 x2).2, harg6.read_unread]
      rw [e1]
      exact View.ld_unit_zero (S := S8x4x32x30) hz4 inb0 _
    rw [e]
  unfold kernelRun0_C
  dsimp only
  sl_unfold_words
  refine hcols _ ?_ _
  repeat (refine ColsB.cons _ _ ?_ _ _ rfl)
  exact ColsB.nil

/-- The first point of the D axis: zeros, then the thirty updates. -/
theorem sout_A (c : Dev nD) (i : grid0.Coords) (arg2 : Memref sig .tc .vmem S8x4x32x1024 .f32) (harg2 : arg2.IsWhole) (arg3 : Memref sig .tc .vmem S8x1024 .i32) (harg3 : arg3.IsWhole) (arg4 : Memref sig .tc .vmem S8x32 .i32) (harg4 : arg4.IsWhole) (arg5 : Memref sig .tc .vmem S8x4x32x30 .f32) (harg5 : arg5.IsWhole) (arg6 : Memref sig .tc .vmem S8x4x32x30 .f32) (harg6 : arg6.IsWhole) (hc0 : cond0_0 i) (hc1 : ¬cond0_1 i)
    (x0 : Vec F S8x4x32x1024 .f32) (x1 : Vec F S8x1024 .i32) (x2 : Vec F S8x32 .i32) :
    sout0_A_0 c i arg2 harg2 arg3 harg3 arg4 harg4 arg5 harg5 arg6 harg6 hc0 hc1 x0 x1 x2 = stepG (k0_pay5 x0) (k0_pay6 x1 x2) k0_pay4 := by
  unfold sout0_A_0
  rw [View.read_writes_eq_canon _ _ _ (scover0_A_0 c i arg2 harg2 arg3 harg3 arg4 harg4 arg5 harg5 arg6 harg6 hc0 hc1 x0 x1 x2)]
  have hcols : ColsA arg6.view (k0_pay5 (View.readAt (Elt F) arg2.view (Rect.unit ![0, 0, 0, 0] S8x4x32x1024.size inb_S8x4x32x1024_S8x4x32x1024_0_0_0_0).toLoadRect (harg2.unread x0))) (k0_pay6 (View.readAt (Elt F) arg3.view (Rect.unit ![0, 0] S8x1024.size inb_S8x1024_S8x1024_0_0).toLoadRect (harg3.unread x1)) (View.readAt (Elt F) arg4.view (Rect.unit ![0, 0] S8x32.size inb_S8x32_S8x32_0_0).toLoadRect (harg4.unread x2))) k0_pay4 30 (kernelRun0_A c i arg2 harg2 arg3 harg3 arg4 harg4 arg5 harg5 arg6 harg6 hc0 hc1 x0 x1 x2).2.1 := by
    unfold kernelRun0_A
    dsimp only
    sl_unfold_words
    repeat (refine ColsA.cons _ _ ?_ _ _ rfl)
    exact ColsA.base _
  funext y
  rw [hcols.canon_eq (Nat.le_refl _) y, if_pos (show (y 3).val < 30 from (y 3).isLt), (loads_whole arg2 harg2 arg3 harg3 arg4 harg4 x0 x1 x2).1,
    (loads_whole arg2 harg2 arg3 harg3 arg4 harg4 x0 x1 x2).2]

end Cert.KernelIdeal.Pieces

end
-- ==== Proof.HistSpec.lean ====
/-
  The weighted histogram both programs compute, as one function of the argument arrays.

  A similarity `x` falls in bin `binOf x`: `((x + c₁) / 2) · 29` truncated to a signed word and clipped into `[0, 29]`
  (the three constants are the same binary words in both programs and are never evaluated). A document token and a query
  token are valid when they differ from `-1`; the weight of the pair is the product of the two validity flags, each `0` or
  `1`. Entry `(b, c, q, k)` of the result is `log (H + ε)` with `H` the sum, over the `4096` document positions `d`, of the
  weight of `(b, q, d)` where `simmat (b, c, q, d)` falls in bin `k`, and of `0` elsewhere.
-/
import Idealize.ShloMosaic.PureOps.Ideal
import Idealize.ShloMosaic.PureOps.Ideal.Laws
import Idealize.ShloMosaic.Lib.ValueIdx

noncomputable section

namespace Cert.Hist

open Idealize.ShloMosaic Idealize.ShloMosaic.ValueIdx

/-- A signed word clipped into `[0, 29]`: the larger of it and `0`, then the smaller of that and `29`. -/
def clip (v : BitVec 32) : BitVec 32 := IntOp.minsi 29#32 (IntOp.maxsi 0#32 v)

/-- The clipped word, read signed, lies in `[0, 29]`. -/
theorem clip_toInt (v : BitVec 32) : 0 ≤ (clip v).toInt ∧ (clip v).toInt ≤ 29 := by
  have h0 : (0#32 : BitVec 32).toInt = 0 := by decide
  have h29 : (29#32 : BitVec 32).toInt = 29 := by decide
  unfold clip IntOp.minsi IntOp.maxsi
  by_cases h1 : (v.slt 0#32) = true
  · rw [if_pos h1]
    have h2 : ¬ ((29#32 : BitVec 32).slt 0#32) = true := by decide
    rw [if_neg h2]; omega
  · rw [if_neg h1]
    have h1' : ¬ v.toInt < (0#32 : BitVec 32).toInt := fun h => h1 (BitVec.slt_iff_toInt_lt.mpr h)
    by_cases h2 : ((29#32 : BitVec 32).slt v) = true
    · rw [if_pos h2]; omega
    · rw [if_neg h2]
      have h2' : ¬ (29#32 : BitVec 32).toInt < v.toInt := fun h => h2 (BitVec.slt_iff_toInt_lt.mpr h)
      omega

/-- Read unsigned it is the same number, at most `29`. -/
theorem clip_toNat (v : BitVec 32) : ((clip v).toNat : Int) = (clip v).toInt ∧ (clip v).toNat ≤ 29 := by
  have h := clip_toInt v
  have hlt := (clip v).isLt
  rw [BitVec.toInt_eq_toNat_cond] at h
  rw [BitVec.toInt_eq_toNat_cond]
  split at h <;> split <;> omega

/-- The bin a similarity falls in. -/
def binOf (x : Ideal .f32) : BitVec 32 :=
  clip (FloatOps.fptosi (F := Ideal) 32
    (FloatOps.mulf (F := Ideal) (φ := .f32)
      (FloatOps.divf (F := Ideal) (φ := .f32)
        (FloatOps.addf (F := Ideal) (φ := .f32) x (FloatOps.ofBits (F := Ideal) .f32 0x3F800008#32))
        (FloatOps.ofBits (F := Ideal) .f32 0x40000000#32))
      (FloatOps.ofBits (F := Ideal) .f32 0x41E80000#32)))

/-- The validity flag of a token as a number: `0` for the padding token `-1`, `1` otherwise. -/
def validOf (t : BitVec 32) : Ideal .f32 :=
  FloatOps.sitofp (F := Ideal) .f32 ((IntOp.cmpi .ne t 4294967295#32).setWidth 32)

/-- The indicator of bin `k` as a number. -/
def maskOf (k v : BitVec 32) : Ideal .f32 :=
  FloatOps.sitofp (F := Ideal) .f32 ((IntOp.cmpi .eq v k).setWidth 32)

theorem flag_true : (BitVec.setWidth 32 (BitVec.ofBool true)).toInt = 1 := by decide
theorem flag_false : (BitVec.setWidth 32 (BitVec.ofBool false)).toInt = 0 := by decide

theorem maskOf_eq (k v : BitVec 32) : maskOf k v = if v = k then 1 else 0 := by
  unfold maskOf IntOp.cmpi
  by_cases h : v = k
  · rw [if_pos h]; subst h
    show (((BitVec.setWidth 32 (BitVec.ofBool (v == v))).toInt : ℝ) : EReal) = 1
    rw [beq_self_eq_true, flag_true]; norm_num
  · rw [if_neg h]
    show (((BitVec.setWidth 32 (BitVec.ofBool (v == k))).toInt : ℝ) : EReal) = 0
    rw [beq_eq_false_iff_ne.mpr h, flag_false]; norm_num

theorem validOf_eq (t : BitVec 32) : validOf t = if t = 4294967295#32 then 0 else 1 := by
  unfold validOf IntOp.cmpi
  by_cases h : t = 4294967295#32
  · rw [if_pos h]; subst h
    show (((BitVec.setWidth 32 (BitVec.ofBool (4294967295#32 != 4294967295#32))).toInt : ℝ) : EReal) = 0
    rw [show ((4294967295#32 : BitVec 32) != 4294967295#32) = false from by decide, flag_false]; norm_num
  · rw [if_neg h]
    show (((BitVec.setWidth 32 (BitVec.ofBool (t != 4294967295#32))).toInt : ℝ) : EReal) = 1
    rw [bne_iff_ne.mpr h, flag_true]; norm_num

/-- The two validity tests joined as bits and then converted are the product of the two flags. -/
theorem uitofp_andi_ne (a b : BitVec 32) :
    FloatOps.uitofp (F := Ideal) .f32 (IntOp.andi (IntOp.cmpi .ne a 4294967295#32) (IntOp.cmpi .ne b 4294967295#32))
      = validOf a * validOf b := by
  rw [validOf_eq, validOf_eq]
  unfold IntOp.andi IntOp.cmpi
  show ((((BitVec.ofBool (a != 4294967295#32)) &&& (BitVec.ofBool (b != 4294967295#32))).toNat : ℝ) : EReal) = _
  have eself : ((4294967295#32 : BitVec 32) != 4294967295#32) = false := by decide
  have e11 : (BitVec.ofBool true &&& BitVec.ofBool true).toNat = 1 := by decide
  have e10 : (BitVec.ofBool true &&& BitVec.ofBool false).toNat = 0 := by decide
  have e01 : (BitVec.ofBool false &&& BitVec.ofBool true).toNat = 0 := by decide
  have e00 : (BitVec.ofBool false &&& BitVec.ofBool false).toNat = 0 := by decide
  by_cases ha : a = 4294967295#32 <;> by_cases hb : b = 4294967295#32
  · subst ha; subst hb; rw [if_pos rfl, eself, e00]; norm_num
  · subst ha; rw [if_pos rfl, if_neg hb, bne_iff_ne.mpr hb, eself, e01]; norm_num
  · subst hb; rw [if_neg ha, if_pos rfl, bne_iff_ne.mpr ha, eself, e10]; norm_num
  · rw [if_neg ha, if_neg hb, bne_iff_ne.mpr ha, bne_iff_ne.mpr hb, e11]; norm_num

/-- One document position's contribution to bin `k` of row `(b, c, q)`. -/
def term (x : (⟨4, ![64, 4, 32, 4096]⟩ : Shape).Idx → Ideal .f32) (dt : (⟨2, ![64, 4096]⟩ : Shape).Idx → BitVec 32)
    (qt : (⟨2, ![64, 32]⟩ : Shape).Idx → BitVec 32) (k : BitVec 32) (b : Fin 64) (c : Fin 4) (q : Fin 32) (d : Fin 4096) :
    Ideal .f32 :=
  maskOf k (binOf (x (ix4 b c q d))) * (validOf (dt (ix2 b d)) * validOf (qt (ix2 b q)))

/-- The weighted count of bin `y₃` of row `(y₀, y₁, y₂)`. -/
def hist (x : (⟨4, ![64, 4, 32, 4096]⟩ : Shape).Idx → Ideal .f32) (dt : (⟨2, ![64, 4096]⟩ : Shape).Idx → BitVec 32)
    (qt : (⟨2, ![64, 32]⟩ : Shape).Idx → BitVec 32) (y : (⟨4, ![64, 4, 32, 30]⟩ : Shape).Idx) : Ideal .f32 :=
  ∑ d : Fin 4096, term x dt qt (BitVec.ofNat 32 (y 3).val) (y 0) (y 1) (y 2) d

/-- The result both programs end with: `log (hist + ε)`. -/
def G (x : (⟨4, ![64, 4, 32, 4096]⟩ : Shape).Idx → Ideal .f32) (dt : (⟨2, ![64, 4096]⟩ : Shape).Idx → BitVec 32)
    (qt : (⟨2, ![64, 32]⟩ : Shape).Idx → BitVec 32) : (⟨4, ![64, 4, 32, 30]⟩ : Shape).Idx → Ideal .f32 :=
  fun y => FloatOps.log (F := Ideal) (φ := .f32)
    (FloatOps.addf (F := Ideal) (φ := .f32) (hist x dt qt y) (FloatOps.ofBits (F := Ideal) .f32 0x3727C5AC#32))

end Cert.Hist

end
-- ==== Proof.KernelBin.lean ====
/-
  One bin's column update, read at an entry, over the extended reals.

  At entry `(b, c, q)` of the block the update adds to the loaded value the sum over the block's `1024` document positions
  `d` of (indicator that the similarity at `(b, c, q, d)` falls in the bin) · (validity of document token `(b, d)`) ·
  (validity of query token `(b, q)`): the weight array is the two flag arrays spread over the missing axes and multiplied,
  and the row sum is a plain finite sum. The layout steps are read at explicit coordinates, one small lemma each.
-/
import proofs.«120851_j24816321036869_1_alg».proof.Proof.KernelCols
import proofs.«120851_j24816321036869_1_alg».proof.Proof.HistSpec
import Idealize.ShloMosaic.PureOps.Ideal.Laws

noncomputable section

namespace Cert.KernelIdeal.Bin

open Cert.KernelIdeal Cert.KernelIdeal.Gen Cert.KernelIdeal.Cols Idealize.ShloMosaic Idealize.ShloMosaic.ValueIdx

variable {α : Type}

/-! ## Layout steps at explicit coordinates -/

theorem cast_8x1024_8x1x1024 (v : S8x1024.Idx → α) (h : S8x1024.ShapeCasts S8x1x1024) (b : Fin 8) (d : Fin 1024) :
    shapeCast S8x1x1024 v h (ix3 b (0 : Fin 1) d) = v (ix2 b d) := by
  refine shapeCast_apply v h _ _ ?_
  rw [Shape.rowMajor_val_two, Shape.rowMajor_val_three]
  show b.val * 1024 + d.val = (b.val * 1 + 0) * 1024 + d.val
  omega

theorem spread_8x1x1024_8x32x1024 (v : S8x1x1024.Idx → α) (h : S8x1x1024.Broadcasts S8x32x1024) (b : Fin 8) (q : Fin 32)
    (d : Fin 1024) : broadcastTo S8x32x1024 v h (ix3 b q d) = v (ix3 b (0 : Fin 1) d) := by
  refine broadcastTo_apply v h _ _ (fun a => ?_)
  match a with
  | ⟨0, _⟩ => rfl
  | ⟨1, _⟩ => rfl
  | ⟨2, _⟩ => rfl

theorem cast_8x32_8x32x1 (v : S8x32.Idx → α) (h : S8x32.ShapeCasts S8x32x1) (b : Fin 8) (q : Fin 32) :
    shapeCast S8x32x1 v h (ix3 b q (0 : Fin 1)) = v (ix2 b q) := by
  refine shapeCast_apply v h _ _ ?_
  rw [Shape.rowMajor_val_two, Shape.rowMajor_val_three]
  show b.val * 32 + q.val = (b.val * 32 + q.val) * 1 + 0
  omega

theorem spread_8x32x1_8x32x1024 (v : S8x32x1.Idx → α) (h : S8x32x1.Broadcasts S8x32x1024) (b : Fin 8) (q : Fin 32)
    (d : Fin 1024) : broadcastTo S8x32x1024 v h (ix3 b q d) = v (ix3 b q (0 : Fin 1)) := by
  refine broadcastTo_apply v h _ _ (fun a => ?_)
  match a with
  | ⟨0, _⟩ => rfl
  | ⟨1, _⟩ => rfl
  | ⟨2, _⟩ => rfl

theorem cast_8x32x1024_8x1x32x1024 (v : S8x32x1024.Idx → α) (h : S8x32x1024.ShapeCasts S8x1x32x1024) (b : Fin 8)
    (q : Fin 32) (d : Fin 1024) : shapeCast S8x1x32x1024 v h (ix4 b (0 : Fin 1) q d) = v (ix3 b q d) := by
  refine shapeCast_apply v h _ _ ?_
  rw [Shape.rowMajor_val_three, Shape.rowMajor_val_four]
  show (b.val * 32 + q.val) * 1024 + d.val = ((b.val * 1 + 0) * 32 + q.val) * 1024 + d.val
  omega

theorem spread_8x1x32x1024_8x4x32x1024 (v : S8x1x32x1024.Idx → α) (h : S8x1x32x1024.Broadcasts S8x4x32x1024) (b : Fin 8)
    (c : Fin 4) (q : Fin 32) (d : Fin 1024) :
    broadcastTo S8x4x32x1024 v h (ix4 b c q d) = v (ix4 b (0 : Fin 1) q d) := by
  refine broadcastTo_apply v h _ _ (fun a => ?_)
  match a with
  | ⟨0, _⟩ => rfl
  | ⟨1, _⟩ => rfl
  | ⟨2, _⟩ => rfl
  | ⟨3, _⟩ => rfl

theorem cast_8x4x32_8x4x32x1 (v : S8x4x32.Idx → α) (h : S8x4x32.ShapeCasts S8x4x32x1) (b : Fin 8) (c : Fin 4)
    (q : Fin 32) : shapeCast S8x4x32x1 v h (ix4 b c q (0 : Fin 1)) = v (ix3 b c q) := by
  refine shapeCast_apply v h _ _ ?_
  rw [Shape.rowMajor_val_three, Shape.rowMajor_val_four]
  show (b.val * 4 + c.val) * 32 + q.val = ((b.val * 4 + c.val) * 32 + q.val) * 1 + 0
  omega

/-! ## The row sum -/

/-- The index the row sum inserts: `(b, c, q)` with `d` on the last axis. -/
theorem lift_eq (h : S8x4x32x1024.Reduces [3] S8x4x32) (b : Fin 8) (c : Fin 4) (q : Fin 32) (d : Fin 1024) :
    h.lift (ix3 b c q) d = ix4 b c q d := by
  funext a
  apply Fin.ext
  match a with
  | ⟨0, _⟩ => rfl
  | ⟨1, _⟩ => rfl
  | ⟨2, _⟩ => rfl
  | ⟨3, _⟩ => rfl

/-- The sum along the last axis from the zero word, at row `(b, c, q)`: the plain sum over `d`. -/
theorem rowsum_apply (src : FVec Ideal S8x4x32x1024 .f32) (h : S8x4x32x1024.Reduces [3] S8x4x32)
    (hφ : FKind.Formats .f32) (hacc : (0x00000000#32 : BitVec FTy.f32.bits) = FKind.add.neutral .f32 hφ)
    (b : Fin 8) (c : Fin 4) (q : Fin 32) :
    multiReduction .add [3] S8x4x32 src 0x00000000#32 h hφ hacc (ix3 b c q) = ∑ d : Fin 1024, src (ix4 b c q d) := by
  refine (Ideal.multiReduction_add_single src 0x00000000#32 h hφ hacc (ix3 b c q)).trans ?_
  exact Finset.sum_congr rfl (fun d _ => congrArg src (lift_eq h b c q d))

/-! ## The block's bin words and weights at an entry -/

/-- The clipped bin word of the block's entry is the bin of the similarity there. -/
theorem bins_apply (x0 : Vec Ideal S8x4x32x1024 .f32) (i : S8x4x32x1024.Idx) :
    k0_pay5 (F := Ideal) x0 i = Hist.binOf (x0 i) := rfl

/-- The weight at `(b, c, q, d)`: the product of the two validity flags. -/
theorem weight_apply (x1 : Vec Ideal S8x1024 .i32) (x2 : Vec Ideal S8x32 .i32) (b : Fin 8) (c : Fin 4) (q : Fin 32)
    (d : Fin 1024) :
    k0_pay6 (F := Ideal) x1 x2 (ix4 b c q d) = Hist.validOf (x1 (ix2 b d)) * Hist.validOf (x2 (ix2 b q)) := by
  unfold k0_pay6
  refine (spread_8x1x32x1024_8x4x32x1024 _ _ b c q d).trans ?_
  rw [shapeCast_self]
  refine (cast_8x32x1024_8x1x32x1024 _ _ b q d).trans ?_
  refine (mulf_apply _ _ _).trans ?_
  congr 1
  · refine (spread_8x1x1024_8x32x1024 _ _ b q d).trans ?_
    rw [shapeCast_self]
    refine (cast_8x1024_8x1x1024 _ _ b d).trans ?_
    rfl
  · refine (spread_8x32x1_8x32x1024 _ _ b q d).trans ?_
    rw [shapeCast_self]
    refine (cast_8x32_8x32x1 _ _ b q).trans ?_
    rfl

/-! ## One bin's update at an entry -/

/-- The contribution of the block's document position `d` to bin `K` of row `(b, c, q)`. -/
def blockTerm (K : BitVec 32) (x0 : Vec Ideal S8x4x32x1024 .f32) (x1 : Vec Ideal S8x1024 .i32) (x2 : Vec Ideal S8x32 .i32)
    (b : Fin 8) (c : Fin 4) (q : Fin 32) (d : Fin 1024) : EReal :=
  Hist.maskOf K (Hist.binOf (x0 (ix4 b c q d))) * (Hist.validOf (x1 (ix2 b d)) * Hist.validOf (x2 (ix2 b q)))

theorem binStep_apply (K : BitVec 32) (x0 : Vec Ideal S8x4x32x1024 .f32) (x1 : Vec Ideal S8x1024 .i32)
    (x2 : Vec Ideal S8x32 .i32) (vload : Vec Ideal S8x4x32x1 .f32) (b : Fin 8) (c : Fin 4) (q : Fin 32) :
    binStep (F := Ideal) K (k0_pay5 x0) (k0_pay6 x1 x2) vload (ix4 b c q (0 : Fin 1))
      = vload (ix4 b c q (0 : Fin 1)) + ∑ d : Fin 1024, blockTerm K x0 x1 x2 b c q d := by
  unfold binStep
  rw [shapeCast_self]
  refine (addf_apply _ _ _).trans ?_
  congr 1
  refine (cast_8x4x32_8x4x32x1 _ _ b c q).trans ?_
  refine (rowsum_apply _ _ _ _ b c q).trans ?_
  refine Finset.sum_congr rfl (fun d _ => ?_)
  refine (mulf_apply _ _ _).trans ?_
  unfold blockTerm
  rw [weight_apply x1 x2 b c q d]
  rfl

/-- The accumulator after the thirty updates, at an entry: the entry before, plus its bin's sum over the block. -/
theorem stepG_apply (x0 : Vec Ideal S8x4x32x1024 .f32) (x1 : Vec Ideal S8x1024 .i32) (x2 : Vec Ideal S8x32 .i32)
    (acc : Vec Ideal S8x4x32x30 .f32) (b : Fin 8) (c : Fin 4) (q : Fin 32) (k : Fin 30) :
    stepG (F := Ideal) (k0_pay5 x0) (k0_pay6 x1 x2) acc (ix4 b c q k)
      = acc (ix4 b c q k) + ∑ d : Fin 1024, blockTerm (BitVec.ofNat 32 k.val) x0 x1 x2 b c q d :=
  binStep_apply (BitVec.ofNat 32 k.val) x0 x1 x2 (colOf acc k) b c q

end Cert.KernelIdeal.Bin

end
-- ==== Proof.KernelFold.lean ====
/-
  The accumulator over a run of four grid points, and the block the last of them writes.

  The grid is `8 × 4`, the D axis innermost: point `t` has coordinates `(t / 4, t % 4)`. Along a run `4i, …, 4i + 3` the
  accumulator is reset to zero at the first point and each point adds, entry by entry, its block's sum for that entry's bin
  (`addend`); so after the last point entry `(b, c, q, k)` holds `0` plus the four addends, and the output block written
  there is `log` of that plus `ε`.
-/
import proofs.«120851_j24816321036869_1_alg».proof.Proof.Gen.KernelIdeal.Value
import proofs.«120851_j24816321036869_1_alg».proof.Proof.KernelPieces
import proofs.«120851_j24816321036869_1_alg».proof.Proof.KernelBin

noncomputable section

namespace Cert.KernelIdeal.Fold

open Cert.KernelIdeal Cert.KernelIdeal.Gen Cert.KernelIdeal.Value Cert.KernelIdeal.Cols Cert.KernelIdeal.Pieces
open Cert.KernelIdeal.Bin
open Idealize.ShloMosaic Idealize.ShloMosaic.TcCoe Idealize.SL.Sem Idealize.ShloMosaic.ValueIdx
open Idealize.ShloMosaic.Pipeline (Dat)

section AnyF

variable {F : FTy → Type} [FloatOps F]
variable (m : (ℓ : Loc nD τ sig) → Buf (Elt F) ℓ)

/-- What point `n` leaves in the accumulator, over what the point before left: the thirty column updates of the point's
    blocks, started from zeros at the first point of a run. -/
theorem scAt_eq (c : Dev nD) (n : ℕ) (hb : n < cfg0.N) (acc : Vec F S8x4x32x30 .f32) :
    scAt0_0 m c n hb acc
      = stepG (k0_pay5 (iblk m c 0 (⟨n, hb⟩ : Fin cfg0.N))) (k0_pay6 (iblk m c 1 (⟨n, hb⟩ : Fin cfg0.N)) (iblk m c 2 (⟨n, hb⟩ : Fin cfg0.N)))
          (if n % 4 = 0 then (k0_pay4 : Vec F S8x4x32x30 .f32) else acc) := by
  unfold scAt0_0
  by_cases h0 : n % 4 = 0
  · have h1 : ¬ n % 4 = 3 := by omega
    rw [dif_pos h0, dif_neg h1, if_pos h0]
    exact sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))
  · rw [dif_neg h0, if_neg h0]
    by_cases h1 : n % 4 = 3
    · rw [dif_pos h1]
      exact sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
    · rw [dif_neg h1]
      exact sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- At the last point of a run the output block holds `log (· + ε)` of the accumulator the point leaves. -/
theorem out_last (c : Dev nD) (t : Fin cfg0.N) (h3 : t.val % 4 = 3) :
    (outsAt0 m c t.val t.isLt).1 = k0_pay3 ((outsAt0 m c t.val t.isLt).2) := by
  have h0 : ¬ t.val % 4 = 0 := by omega
  rw [outsAt0_C m c t h0 h3]
  dsimp only
  rw [out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t)
      (outsAt0 m c (t.val - 1) (Nat.lt_of_le_of_lt (Nat.sub_le _ _) t.isLt)).2,
    sout_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t)
      (outsAt0 m c (t.val - 1) (Nat.lt_of_le_of_lt (Nat.sub_le _ _) t.isLt)).2]

end AnyF

/-! ## Over the extended reals -/

variable (m : (ℓ : Loc nD τ sig) → Buf (Elt Ideal) ℓ)

/-- Point `n`'s addend at an entry: the sum over its block's document positions of the entry's bin indicator times the weight. -/
def addend (c : Dev nD) (n : ℕ) (y : S8x4x32x30.Idx) : EReal :=
  if h : n < cfg0.N then
    ∑ d : Fin 1024, blockTerm (BitVec.ofNat 32 (y 3).val) (iblk m c 0 ⟨n, h⟩) (iblk m c 1 ⟨n, h⟩) (iblk m c 2 ⟨n, h⟩)
      (y 0 : Fin 8) (y 1 : Fin 4) (y 2 : Fin 32) d
  else 0

/-- One point's step at an entry: the entry it started from (zero at the first point of a run) plus the addend. -/
theorem step_apply (c : Dev nD) (n : ℕ) (hb : n < cfg0.N) (acc : Vec Ideal S8x4x32x30 .f32) (y : S8x4x32x30.Idx) :
    scAt0_0 m c n hb acc y
      = (if n % 4 = 0 then (k0_pay4 (F := Ideal) : Vec Ideal S8x4x32x30 .f32) else acc) y + addend m c n y := by
  obtain ⟨b, cc, q, k, rfl⟩ : ∃ (b : Fin 8) (cc : Fin 4) (q : Fin 32) (k : Fin 30), y = ix4 b cc q k :=
    ⟨y 0, y 1, y 2, y 3, eq_ix4 y⟩
  rw [scAt_eq m c n hb acc]
  unfold addend
  rw [dif_pos hb]
  exact stepG_apply (iblk m c 0 (⟨n, hb⟩ : Fin cfg0.N)) (iblk m c 1 (⟨n, hb⟩ : Fin cfg0.N)) (iblk m c 2 (⟨n, hb⟩ : Fin cfg0.N))
    (if n % 4 = 0 then (k0_pay4 (F := Ideal) : Vec Ideal S8x4x32x30 .f32) else acc) b cc q k

/-- The accumulator after point `t`: zero plus the addends of its run's points up to `t`. -/
theorem acc_apply (c : Dev nD) (t : Fin cfg0.N) (y : S8x4x32x30.Idx) :
    (outsAt0 m c t.val t.isLt).2 y
      = (k0_pay4 (F := Ideal) : Vec Ideal S8x4x32x30 .f32) y + ∑ s ∈ Finset.range (t.val % 4 + 1), addend m c (4 * (t.val / 4) + s) y := by
  rw [soutsAt0_0_eq m c t]
  refine Pipeline.accAt_add_apply (fun n h => scAt0_0 m c n h (VS0_0.read (Elt Ideal) VS0_0.junk)) (scAt0_0 m c)
    (k0_pay4 (F := Ideal) : Vec Ideal S8x4x32x30 .f32) (addend m c) (4 * (t.val / 4)) 3 ?_ ?_ (t.val % 4) (by omega) _ y
  · intro h i
    rw [step_apply m c _ h _ i, if_pos (by omega)]
  · intro n h acc i hlo hhi
    rw [step_apply m c n h acc i, if_neg (by omega)]

end Cert.KernelIdeal.Fold

end
-- ==== Proof.KernelWindow.lean ====
/-
  The kernel's windows, read at explicit coordinates.

  The kernel runs over an `(8, 4)` grid; point `t` has coordinates `(t / 4, t % 4)`. Its three input windows cut the
  similarity array `[64, 4, 32, 4096]` into blocks `[8, 4, 32, 1024]` (block index `(t / 4, 0, 0, t % 4)`), the document
  tokens `[64, 4096]` into blocks `[8, 1024]` (block index `(t / 4, t % 4)`) and the query tokens `[64, 32]` into blocks
  `[8, 32]` (block index `(t / 4, 0)`); the output window cuts the result `[64, 4, 32, 30]` into blocks `[8, 4, 32, 30]`
  (block index `(t / 4, 0, 0, 0)`), written back at the points with `t % 4 = 3`.

  An element of a block sits in its array at block index × block size + its coordinate inside the block, axis by axis.
  So entry `(b, cc, q, d)` of the similarity block at `t` is entry `(8 · (t / 4) + b, cc, q, 1024 · (t % 4) + d)` of the array, and
  likewise for the tokens. On the output side the eight row blocks, each written back once (at its fourth point), tile
  the result array: index `i` lies in the block of the point `4 · (i₀ / 8) + 3`. Hence if every point that writes back writes
  a function `G` of the array index read through its block, the array ends holding `G`.
-/
import proofs.«120851_j24816321036869_1_alg».proof.Proof.Gen.KernelIdeal.Value
import Idealize.ShloMosaic.Lib.Pipeline.Value
import Idealize.ShloMosaic.Lib.ValueIdx

noncomputable section

namespace Cert.KernelIdeal.Window

open Cert.KernelIdeal Cert.KernelIdeal.Gen Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ)

/-- The grid has 32 points. -/
theorem t_lt (t : Fin cfg0.N) : t.val < 32 := lt_of_lt_of_eq t.isLt (show cfg0.N = 32 from N_0)

/-! ## The printed index maps, decided once over the grid

  Point `t` of the `(8, 4)` grid has coordinates `(t / 4, t % 4)`. -/

/-- Window 0 (the similarities): block index `(t / 4, 0, 0, t % 4)`. -/
theorem idx_facts0 : ∀ t : Fin cfg0.N, win0_0.index t (0 : Fin 4) = t.val / 4 ∧ win0_0.index t (1 : Fin 4) = 0
    ∧ win0_0.index t (2 : Fin 4) = 0 ∧ win0_0.index t (3 : Fin 4) = t.val % 4 :=
  (by decide +kernel : ∀ t : Fin grid0.N, _)

/-- Window 1 (the document tokens): block index `(t / 4, t % 4)`. -/
theorem idx_facts1 : ∀ t : Fin cfg0.N, win0_1.index t (0 : Fin 2) = t.val / 4 ∧ win0_1.index t (1 : Fin 2) = t.val % 4 :=
  (by decide +kernel : ∀ t : Fin grid0.N, _)

/-- Window 2 (the query tokens): block index `(t / 4, 0)`. -/
theorem idx_facts2 : ∀ t : Fin cfg0.N, win0_2.index t (0 : Fin 2) = t.val / 4 ∧ win0_2.index t (1 : Fin 2) = 0 :=
  (by decide +kernel : ∀ t : Fin grid0.N, _)

/-- Window 3 (the result): block index `(t / 4, 0, 0, 0)`. -/
theorem idx_facts3 : ∀ t : Fin cfg0.N, win0_3.index t (0 : Fin 4) = t.val / 4 ∧ win0_3.index t (1 : Fin 4) = 0
    ∧ win0_3.index t (2 : Fin 4) = 0 ∧ win0_3.index t (3 : Fin 4) = 0 :=
  (by decide +kernel : ∀ t : Fin grid0.N, _)

/-! ## The input blocks read at an index -/

/-- Entry `(b, cc, q, d)` of the similarity block at point `t` is entry `(8 · (t / 4) + b, cc, q, 1024 · (t % 4) + d)` of the array. -/
theorem iblk0_apply (c : Dev nD) (t : Fin cfg0.N) (b : Fin 8) (cc : Fin 4) (q : Fin 32) (d : Fin 1024) :
    (iblk m c 0 t : Vec F S8x4x32x1024 .f32) (ix4 b cc q d)
      = m ((c : Thread nD τ).loc main_arg0)
          (ix4 (⟨8 * (t.val / 4) + b.val, by have := t_lt t; omega⟩ : Fin 64) cc q
            (⟨1024 * (t.val % 4) + d.val, by omega⟩ : Fin 4096)) := by
  obtain ⟨e0, e1, e2, e3⟩ := idx_facts0 t
  unfold iblk
  rw [View.read_apply]
  show V m c main_arg0 _ = m (c.tc.loc main_arg0) _
  unfold V
  congr 1
  funext a
  apply Fin.ext
  match a with
  | ⟨0, _⟩ => show win0_0.index t (0 : Fin 4) * 8 + 1 * b.val = 8 * (t.val / 4) + b.val; rw [e0]; omega
  | ⟨1, _⟩ => show win0_0.index t (1 : Fin 4) * 4 + 1 * cc.val = cc.val; rw [e1]; omega
  | ⟨2, _⟩ => show win0_0.index t (2 : Fin 4) * 32 + 1 * q.val = q.val; rw [e2]; omega
  | ⟨3, _⟩ => show win0_0.index t (3 : Fin 4) * 1024 + 1 * d.val = 1024 * (t.val % 4) + d.val; rw [e3]; omega

/-- Entry `(b, d)` of the document-token block at point `t` is entry `(8 · (t / 4) + b, 1024 · (t % 4) + d)` of the array. -/
theorem iblk1_apply (c : Dev nD) (t : Fin cfg0.N) (b : Fin 8) (d : Fin 1024) :
    (iblk m c 1 t : Vec F S8x1024 .i32) (ix2 b d)
      = m ((c : Thread nD τ).loc main_arg1)
          (ix2 (⟨8 * (t.val / 4) + b.val, by have := t_lt t; omega⟩ : Fin 64)
            (⟨1024 * (t.val % 4) + d.val, by omega⟩ : Fin 4096)) := by
  obtain ⟨e0, e1⟩ := idx_facts1 t
  unfold iblk
  rw [View.read_apply]
  show V m c main_arg1 _ = m (c.tc.loc main_arg1) _
  unfold V
  congr 1
  funext a
  apply Fin.ext
  match a with
  | ⟨0, _⟩ => show win0_1.index t (0 : Fin 2) * 8 + 1 * b.val = 8 * (t.val / 4) + b.val; rw [e0]; omega
  | ⟨1, _⟩ => show win0_1.index t (1 : Fin 2) * 1024 + 1 * d.val = 1024 * (t.val % 4) + d.val; rw [e1]; omega

/-- Entry `(b, q)` of the query-token block at point `t` is entry `(8 · (t / 4) + b, q)` of the array. -/
theorem iblk2_apply (c : Dev nD) (t : Fin cfg0.N) (b : Fin 8) (q : Fin 32) :
    (iblk m c 2 t : Vec F S8x32 .i32) (ix2 b q)
      = m ((c : Thread nD τ).loc main_arg2)
          (ix2 (⟨8 * (t.val / 4) + b.val, by have := t_lt t; omega⟩ : Fin 64) q) := by
  obtain ⟨e0, e1⟩ := idx_facts2 t
  unfold iblk
  rw [View.read_apply]
  show V m c main_arg2 _ = m (c.tc.loc main_arg2) _
  unfold V
  congr 1
  funext a
  apply Fin.ext
  match a with
  | ⟨0, _⟩ => show win0_2.index t (0 : Fin 2) * 8 + 1 * b.val = 8 * (t.val / 4) + b.val; rw [e0]; omega
  | ⟨1, _⟩ => show win0_2.index t (1 : Fin 2) * 32 + 1 * q.val = q.val; rw [e1]; omega

/-! ## The output side -/

/-- A block of the result at point `t` whose entry `(b, cc, q, k)` is `G` at `(8 · (t / 4) + b, cc, q, k)` is `G` read through
    the point's block of the result array. -/
theorem cut_eq_read (c : Dev nD) (t : Fin cfg0.N) (X : Vec F S8x4x32x30 .f32) (G : S64x4x32x30.Idx → F .f32)
    (h : ∀ (b : Fin 8) (cc : Fin 4) (q : Fin 32) (k : Fin 30),
      X (ix4 b cc q k) = G (ix4 (⟨8 * (t.val / 4) + b.val, by have := t_lt t; omega⟩ : Fin 64) cc q k)) :
    (cfg0.win 3).cut (grid0.coords t) X = ((cfg0.win 3).blk t).view.read (Elt F) G := by
  obtain ⟨e0, e1, e2, e3⟩ := idx_facts3 t
  refine funext fun (j : S8x4x32x30.Idx) => ?_
  obtain ⟨b, cc, q, k, rfl⟩ : ∃ (b : Fin 8) (cc : Fin 4) (q : Fin 32) (k : Fin 30), j = ix4 b cc q k :=
    ⟨j 0, j 1, j 2, j 3, eq_ix4 j⟩
  rw [View.read_apply]
  show X (ix4 b cc q k) = G (((cfg0.win 3).blk t).view.emb (ix4 b cc q k))
  rw [h]
  congr 1
  funext a
  apply Fin.ext
  match a with
  | ⟨0, _⟩ => show 8 * (t.val / 4) + b.val = win0_3.index t (0 : Fin 4) * 8 + 1 * b.val; rw [e0]; omega
  | ⟨1, _⟩ => show cc.val = win0_3.index t (1 : Fin 4) * 4 + 1 * cc.val; rw [e1]; omega
  | ⟨2, _⟩ => show q.val = win0_3.index t (2 : Fin 4) * 32 + 1 * q.val; rw [e2]; omega
  | ⟨3, _⟩ => show k.val = win0_3.index t (3 : Fin 4) * 30 + 1 * k.val; rw [e3]; omega

/-- An index of the result array is in point `t`'s block iff each coordinate is in the block's range on its axis. -/
theorem mem_blk3 (t : Fin cfg0.N) (i : S64x4x32x30.Idx) :
    i ∈ ((cfg0.win 3).blk t).view.set ↔ ∀ a : Fin 4, win0_3.index t a * S8x4x32x30.size a ≤ (i a).val
      ∧ (i a).val < win0_3.index t a * S8x4x32x30.size a + S8x4x32x30.size a := by
  show i ∈ ((View.whole main_v0).slice (win0_3.rect t)).set ↔ _
  rw [View.set_slice_whole, Rect.mem_set_unit]
  exact Iff.rfl

/-- Every index of the result array is in the block of a point that writes back: row block `i₀ / 8`, at its last point. -/
theorem cover3 (i : S64x4x32x30.Idx) :
    ∃ t : Fin cfg0.N, (cfg0.win 3).flush t = true ∧ i ∈ ((cfg0.win 3).blk t).view.set := by
  have h0 : (i 0).val < 64 := (i 0).isLt
  have h1 : (i 1).val < 4 := (i 1).isLt
  have h2 : (i 2).val < 32 := (i 2).isLt
  have h3 : (i 3).val < 30 := (i 3).isLt
  let t : Fin cfg0.N := ⟨4 * ((i 0).val / 8) + 3, lt_of_lt_of_eq (by omega : 4 * ((i 0).val / 8) + 3 < 32) (show cfg0.N = 32 from N_0).symm⟩
  have ht : t.val = 4 * ((i 0).val / 8) + 3 := rfl
  obtain ⟨e0, e1, e2, e3⟩ := idx_facts3 t
  refine ⟨t, (flush0_3 t).mpr (by rw [ht]; omega), ?_⟩
  rw [mem_blk3]
  intro a
  match a with
  | ⟨0, _⟩ => show win0_3.index t (0 : Fin 4) * 8 ≤ (i 0).val ∧ (i 0).val < win0_3.index t (0 : Fin 4) * 8 + 8; rw [e0, ht]; omega
  | ⟨1, _⟩ => show win0_3.index t (1 : Fin 4) * 4 ≤ (i 1).val ∧ (i 1).val < win0_3.index t (1 : Fin 4) * 4 + 4; rw [e1]; omega
  | ⟨2, _⟩ => show win0_3.index t (2 : Fin 4) * 32 ≤ (i 2).val ∧ (i 2).val < win0_3.index t (2 : Fin 4) * 32 + 32; rw [e2]; omega
  | ⟨3, _⟩ => show win0_3.index t (3 : Fin 4) * 30 ≤ (i 3).val ∧ (i 3).val < win0_3.index t (3 : Fin 4) * 30 + 30; rw [e3]; omega

/-- THE RESULT ARRAY after the run: when every point that writes back writes `G` read through its block, the array is `G`. -/
theorem final_of_flushed (c : Dev nD) (G : S64x4x32x30.Idx → F .f32)
    (hfl : ∀ t : Fin cfg0.N, t.val % 4 = 3 → (dats m 0 c).flushed 3 t = ((cfg0.win 3).blk t).view.read (Elt F) G) :
    (dats m 0 c).arrAt 3 cfg0.N = G :=
  (dats m 0 c).arrAt_eq_of_cover 3 G (fun t hf => hfl t ((flush0_3 t).mp hf)) cover3

end Cert.KernelIdeal.Window

end
-- ==== Proof.LibSumBlocks.lean ====
/-
  A general lemma file (Mathlib only): sums over a range cut into equal consecutive blocks. The sum over all
  indices of `Fin (n * b)` is the sum over the `n` blocks of the sums inside each block of `b` consecutive
  indices, for any commutative additive monoid; with the instances 4096 = 4 × 1024 and 4096 = 16 × 256. Used where a
  contraction or a reduction is computed block by block (a matrix product accumulated over blocks of the contracted
  axis, column sums formed per row block and added up afterwards).
-/
import Mathlib.Algebra.BigOperators.Fin
import Mathlib.Logic.Equiv.Fin.Basic

namespace Cert.SumBlocks

open scoped BigOperators

/-- A sum over `Fin (n * b)` is the sum over `n` consecutive blocks of `b` indices. -/
theorem sum_blocks {M : Type*} [AddCommMonoid M] (n b : ℕ) (f : Fin (n * b) → M) :
    ∑ u, f u = ∑ k : Fin n, ∑ r : Fin b, f ⟨b * k.val + r.val, by
      have hk := k.isLt; have hr := r.isLt
      have h1 : b * k.val + r.val < b * (k.val + 1) := by rw [Nat.mul_succ]; omega
      have h2 : b * (k.val + 1) ≤ b * n := Nat.mul_le_mul_left b hk
      rw [Nat.mul_comm n b]; exact lt_of_lt_of_le h1 h2⟩ := by
  rw [← Equiv.sum_comp (finProdFinEquiv (m := n) (n := b)) f, Fintype.sum_prod_type]
  refine Finset.sum_congr rfl fun k _ => Finset.sum_congr rfl fun r _ => congrArg f (Fin.ext ?_)
  simp [finProdFinEquiv, Nat.add_comm]

/-- 4096 indices as 4 blocks of 1024. -/
theorem sum_4x1024 {M : Type*} [AddCommMonoid M] (f : Fin 4096 → M) :
    ∑ u, f u = ∑ k : Fin 4, ∑ r : Fin 1024, f ⟨1024 * k.val + r.val, by have := k.isLt; have := r.isLt; omega⟩ :=
  sum_blocks 4 1024 f

/-- 4096 indices as 16 blocks of 256. -/
theorem sum_16x256 {M : Type*} [AddCommMonoid M] (f : Fin 4096 → M) :
    ∑ u, f u = ∑ k : Fin 16, ∑ r : Fin 256, f ⟨256 * k.val + r.val, by have := k.isLt; have := r.isLt; omega⟩ :=
  sum_blocks 16 256 f

end Cert.SumBlocks
-- ==== Proof.KernelValue.lean ====
/-
  The kernel's result array is the weighted histogram's logarithm.

  At the last point `t = 4i + 3` of a run the output block's entry `(b, c, q, k)` is `log (0 + (the four addends) + ε)`.
  Point `4i + s`'s input blocks are rows `8i … 8i + 7` of the arrays and document positions `1024s … 1024s + 1023`, so its
  addend is the part of the histogram's sum over those positions; the four parts are the whole sum over the `4096`
  positions. The blocks written at the eight last points tile the result array, which is therefore `Hist.G` of the
  three argument arrays.
-/
import proofs.«120851_j24816321036869_1_alg».proof.Proof.KernelFold
import proofs.«120851_j24816321036869_1_alg».proof.Proof.KernelWindow
import proofs.«120851_j24816321036869_1_alg».proof.Proof.LibSumBlocks
import proofs.«120851_j24816321036869_1_alg».proof.Proof.HistSpec

noncomputable section

namespace Cert.KernelIdeal.Result

open Cert.KernelIdeal Cert.KernelIdeal.Gen Cert.KernelIdeal.Value Cert.KernelIdeal.Cols Cert.KernelIdeal.Pieces
open Cert.KernelIdeal.Bin Cert.KernelIdeal.Fold Cert.KernelIdeal.Window
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The histogram of the three argument arrays as launched. -/
abbrev result (c : Dev nD) : S64x4x32x30.Idx → Ideal .f32 :=
  Hist.G (m ((c : Thread nD τ).loc main_arg0)) (m ((c : Thread nD τ).loc main_arg1)) (m ((c : Thread nD τ).loc main_arg2))

/-- Point `n`'s addend at `(b, c, q, k)`: the histogram's terms of row `8·(n / 4) + b` over the document positions
    `1024·(n % 4) + d`. -/
theorem addend_apply (c : Dev nD) (n : ℕ) (hn : n < cfg0.N) (b : Fin 8) (cc : Fin 4) (q : Fin 32) (k : Fin 30) :
    addend m c n (ix4 b cc q k)
      = ∑ d : Fin 1024, Hist.term (m ((c : Thread nD τ).loc main_arg0)) (m ((c : Thread nD τ).loc main_arg1))
          (m ((c : Thread nD τ).loc main_arg2)) (BitVec.ofNat 32 k.val)
          (⟨8 * (n / 4) + b.val, by have := t_lt ⟨n, hn⟩; have h : (⟨n, hn⟩ : Fin cfg0.N).val = n := rfl; omega⟩ : Fin 64) cc q
          (⟨1024 * (n % 4) + d.val, by omega⟩ : Fin 4096) := by
  unfold addend
  rw [dif_pos hn]
  show ∑ d : Fin 1024, blockTerm (BitVec.ofNat 32 k.val) (iblk m c 0 ⟨n, hn⟩) (iblk m c 1 ⟨n, hn⟩) (iblk m c 2 ⟨n, hn⟩) b cc q d = _
  refine Finset.sum_congr rfl (fun d _ => ?_)
  unfold blockTerm Hist.term
  rw [iblk0_apply m c ⟨n, hn⟩ b cc q d, iblk1_apply m c ⟨n, hn⟩ b d, iblk2_apply m c ⟨n, hn⟩ b q]

/-- The accumulator after the last point of a run, at an entry: the histogram's weighted count. -/
theorem acc_last (c : Dev nD) (t : Fin cfg0.N) (h3 : t.val % 4 = 3) (b : Fin 8) (cc : Fin 4) (q : Fin 32) (k : Fin 30) :
    (outsAt0 m c t.val t.isLt).2 (ix4 b cc q k)
      = Hist.hist (m ((c : Thread nD τ).loc main_arg0)) (m ((c : Thread nD τ).loc main_arg1))
          (m ((c : Thread nD τ).loc main_arg2))
          (ix4 (⟨8 * (t.val / 4) + b.val, by have := t_lt t; omega⟩ : Fin 64) cc q k) := by
  have ht := t_lt t
  rw [acc_apply m c t (ix4 b cc q k), h3]
  have hzero : (k0_pay4 (F := Ideal) : Vec Ideal S8x4x32x30 .f32) (ix4 b cc q k) = 0 := Ideal.ofBits_zero_f32
  rw [hzero, zero_add, Finset.sum_range]
  unfold Hist.hist
  rw [Cert.SumBlocks.sum_4x1024]
  refine Finset.sum_congr rfl (fun s _ => ?_)
  have hs := s.isLt
  have hn : 4 * (t.val / 4) + s.val < cfg0.N :=
    lt_of_lt_of_eq (show 4 * (t.val / 4) + s.val < 32 by omega) (show (32 : ℕ) = cfg0.N from N_0.symm)
  rw [addend_apply m c (4 * (t.val / 4) + s.val) hn b cc q k]
  refine Finset.sum_congr rfl (fun d _ => ?_)
  have e1 : (⟨8 * ((4 * (t.val / 4) + s.val) / 4) + b.val, by omega⟩ : Fin 64) = ⟨8 * (t.val / 4) + b.val, by omega⟩ :=
    Fin.ext (by show 8 * ((4 * (t.val / 4) + s.val) / 4) + b.val = 8 * (t.val / 4) + b.val; omega)
  have e2 : (⟨1024 * ((4 * (t.val / 4) + s.val) % 4) + d.val, by omega⟩ : Fin 4096) = ⟨1024 * s.val + d.val, by omega⟩ :=
    Fin.ext (by show 1024 * ((4 * (t.val / 4) + s.val) % 4) + d.val = 1024 * s.val + d.val; omega)
  rw [e1, e2]

/-- The output block written at the last point of a run, at an entry: the result there. -/
theorem block_eq (c : Dev nD) (t : Fin cfg0.N) (h3 : t.val % 4 = 3) (b : Fin 8) (cc : Fin 4) (q : Fin 32) (k : Fin 30) :
    (outsAt0 m c t.val t.isLt).1 (ix4 b cc q k)
      = result m c (ix4 (⟨8 * (t.val / 4) + b.val, by have := t_lt t; omega⟩ : Fin 64) cc q k) := by
  rw [out_last m c t h3]
  show FloatOps.log (F := Ideal) (φ := .f32) (FloatOps.addf (F := Ideal) (φ := .f32)
      ((outsAt0 m c t.val t.isLt).2 (ix4 b cc q k)) (FloatOps.ofBits (F := Ideal) .f32 0x3727C5AC#32)) = _
  rw [acc_last m c t h3 b cc q k]
  rfl

/-- What the last point of a run writes back is the result read through its block. -/
theorem flushed_eq (c : Dev nD) (t : Fin cfg0.N) (h3 : t.val % 4 = 3) :
    (dats m 0 c).flushed 3 t = ((cfg0.win 3).blk t).view.read (Elt Ideal) (result m c) := by
  rw [flushed3 m c t]
  exact cut_eq_read c t _ (result m c) (block_eq m c t h3)

/-- So the result array ends at the histogram's logarithm. -/
theorem final (c : Dev nD) : (dats m 0 c).arrAt 3 cfg0.N = result m c :=
  final_of_flushed m c (result m c) (fun t h3 => flushed_eq m c t h3)

/-- The run, read: the result array at `Hist.G` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Result

end
-- ==== Proof.LibEdgeOps.lean ====
/-
  Indexing by an edge list, read at an index: `x[idx]`, `x[idx, :]`, `zeros.at[idx].add(v)`, `zeros.at[idx, :].add(v)`.

  An integer array `idx` of `E` entries, laid out `[E, 1]`, names for each edge `e` a position of an array of extent `N`
  (or a row of an `[N, C]` array). A gather reads the named position, the index read signed and clamped into
  `[0, N − 1]`; an accumulating scatter adds update `e` at the named position, and drops it when the index, read
  signed, falls outside `[0, N)`. Over the extended reals the accumulated array at `j` is the operand at `j` plus the sum
  of the updates of the edges that name `j`.
-/
import Idealize.ShloMosaic.PureOps.Ideal
import Idealize.ShloMosaic.PureOps.Contract
import Idealize.ShloMosaic.Lib.ValueIdx

noncomputable section

namespace Cert.EdgeOps

open Idealize.ShloMosaic Idealize.ShloMosaic.ValueIdx

/-! ## Accumulating at positions of a one-axis array -/

/-- The dimension numbers of `x.at[idx].add(v)` for `x : [N]`, `idx : [E, 1]`, `v : [E]`. -/
abbrev addDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat}

theorem addDims_start (wf : ScatterDims.WF ⟨1, ![N]⟩ ⟨2, ![E, 1]⟩ ⟨1, ![E]⟩ [] [0] [0] 1) (idx : IVec ⟨2, ![E, 1]⟩ w) (e : Fin E) :
    (addDims N E wf).start (ix1 e) idx 0 = (idx (ix2 e (0 : Fin 1))).toInt := by
  unfold ScatterDims.start
  rw [dif_pos (show (0 : Fin 1) ∈ (addDims N E wf).scatterDimsToOperandDims from List.mem_singleton.mpr rfl)]
  congr 2
  funext b; refine Fin.ext ?_
  match b with
  | ⟨0, _⟩ => rfl
  | ⟨1, _⟩ => rfl

theorem addDims_window (wf : ScatterDims.WF ⟨1, ![N]⟩ ⟨2, ![E, 1]⟩ ⟨1, ![E]⟩ [] [0] [0] 1) (e : Fin E) :
    (addDims N E wf).window (ix1 e) 0 = 0 := by
  unfold ScatterDims.window
  rw [dif_neg]
  simp [ScatterDims.sKept, Shape.kept]

/-- WHERE UPDATE `e` LANDS: at the position its index names, when that is inside the array. -/
theorem addDims_resultIdx_eq_some_iff (wf : ScatterDims.WF ⟨1, ![N]⟩ ⟨2, ![E, 1]⟩ ⟨1, ![E]⟩ [] [0] [0] 1)
    (idx : IVec ⟨2, ![E, 1]⟩ w) (e : Fin E) (j : Fin N) :
    (addDims N E wf).resultIdx? (ix1 e) idx = some (ix1 j) ↔ (idx (ix2 e (0 : Fin 1))).toInt = (j.val : Int) := by
  unfold ScatterDims.resultIdx?
  have hs := addDims_start wf idx e
  have hw := addDims_window (N := N) wf e
  split
  · next h =>
    have h0 := h 0
    rw [hs, hw] at h0
    constructor
    · intro heq
      have := congrFun (Option.some.inj heq) 0
      have hv := congrArg Fin.val this
      simp only at hv
      rw [hs, hw] at hv
      simp only [Nat.cast_zero, add_zero] at hv h0
      show _ = ((ix1 j (0 : Fin 1)).val : Int)
      have h1 : ((idx (ix2 e (0 : Fin 1))).toInt.toNat : Int) = (idx (ix2 e (0 : Fin 1))).toInt := Int.toNat_of_nonneg h0.1
      exact h1.symm.trans (congrArg (fun n : Nat => (n : Int)) hv)
    · intro heq
      congr 1
      funext a
      obtain rfl : a = 0 := Subsingleton.elim _ _
      refine Fin.ext ?_
      show ((addDims N E wf).start (ix1 e) idx 0 + ((addDims N E wf).window (ix1 e) 0 : Int)).toNat = j.val
      rw [hs, hw, heq]; simp
  · next h =>
    constructor
    · intro heq; exact absurd heq (by simp)
    · intro heq
      exfalso; apply h
      intro a
      obtain rfl : a = 0 := Subsingleton.elim _ _
      rw [hs, hw, heq]
      have := j.isLt
      simp only [Nat.cast_zero, add_zero]
      exact ⟨by omega, by exact_mod_cast this⟩

/-- An index of a one-axis array is its one coordinate. -/
def idx1Equiv (n : Nat) : (⟨1, ![n]⟩ : Shape).Idx ≃ Fin n where
  toFun u := u 0
  invFun := ix1
  left_inv u := (eq_ix1 u).symm
  right_inv _ := rfl

/-- THE ACCUMULATED ARRAY AT `j`, over the extended reals: the operand there plus the updates of the edges that name `j`. -/
theorem scatterAdd_addDims_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (j : Fin N) :
    Host.scatterAdd (addDims N E wf) x idx upd (ix1 j)
      = x (ix1 j) + ∑ e : Fin E with (idx (ix2 e (0 : Fin 1))).toInt = (j.val : Int), upd (ix1 e) := by
  show Ideal.hostScatterAdd (addDims N E wf) x idx upd (ix1 j) = _
  unfold Ideal.hostScatterAdd
  congr 1
  refine Finset.sum_equiv (idx1Equiv E) (fun u => ?_) (fun u _ => ?_)
  · obtain ⟨e, rfl⟩ : ∃ e : Fin E, u = ix1 e := ⟨u 0, eq_ix1 u⟩
    simp only [Finset.mem_filter, Finset.mem_univ, true_and]
    exact addDims_resultIdx_eq_some_iff wf idx e j
  · obtain ⟨e, rfl⟩ : ∃ e : Fin E, u = ix1 e := ⟨u 0, eq_ix1 u⟩
    rfl

/-! ## The same accumulation as a fold of single updates (an integer `.at[idx].add(v)`: a histogram) -/

/-- A fold of single updates — entry `n` adds `val n` at the position `tgt n` names, or is dropped — leaves at `i₀` the
    start there plus the values of the entries that name `i₀`. -/
theorem foldl_update_apply {ι κ A : Type*} [DecidableEq ι] [AddCommMonoid A] (tgt : κ → Option ι) (val : κ → A)
    (l : List κ) (x : ι → A) (i₀ : ι) :
    (l.foldl (fun r n => match tgt n with
        | some i => fun i' => if i' = i then r i + val n else r i'
        | none => r) x) i₀
      = x i₀ + ((l.filter fun n => decide (tgt n = some i₀)).map val).sum := by
  induction l generalizing x with
  | nil => simp
  | cons a l ih =>
    rw [List.foldl_cons, ih]
    cases hta : tgt a with
    | none => simp [hta]
    | some i =>
      by_cases hi : i₀ = i
      · subst hi
        simp [hta, add_assoc]
      · have : ¬ (some i = some i₀) := fun h => hi (Option.some.inj h).symm
        simp [hta, hi, this]

/-- The sum over the entries a test keeps is the sum of the entries' values where the test holds, zero elsewhere. -/
theorem sum_filter_map {κ A : Type*} [AddCommMonoid A] (l : List κ) (p : κ → Bool) (val : κ → A) :
    ((l.filter p).map val).sum = (l.map fun n => if p n then val n else 0).sum := by
  induction l with
  | nil => rfl
  | cons a l ih => by_cases h : p a <;> simp [List.filter_cons, h, ih]

/-- THE FOLDED ACCUMULATION AT `j`: `Host.scatter` with an adding body, over a commutative monoid, leaves at `j` the operand
    there plus the updates of the edges that name `j`. -/
theorem scatter_add_addDims_apply {A : Type} [AddCommMonoid A] (wf : ScatterDims.WF ⟨1, ![N]⟩ ⟨2, ![E, 1]⟩ ⟨1, ![E]⟩ [] [0] [0] 1)
    (x : (⟨1, ![N]⟩ : Shape).Idx → A) (idx : IVec ⟨2, ![E, 1]⟩ w) (upd : (⟨1, ![E]⟩ : Shape).Idx → A) (j : Fin N) :
    Host.scatter (addDims N E wf) (fun a b => a + b) x idx upd (ix1 j)
      = x (ix1 j) + ∑ e : Fin E with (idx (ix2 e (0 : Fin 1))).toInt = (j.val : Int), upd (ix1 e) := by
  unfold Host.scatter
  have key := foldl_update_apply (fun n => (addDims N E wf).resultIdx? ((⟨1, ![E]⟩ : Shape).rowMajor.symm n) idx)
    (fun n => upd ((⟨1, ![E]⟩ : Shape).rowMajor.symm n)) (List.finRange (⟨1, ![E]⟩ : Shape).numel) x (ix1 j)
  beta_reduce
  refine Eq.trans ?_ (key.trans ?_)
  · congr!
    funext motive o h₁ h₂
    cases o <;> rfl
  congr 1
  rw [sum_filter_map, ← Fin.sum_univ_def, ← Finset.sum_filter]
  refine Finset.sum_equiv ((⟨1, ![E]⟩ : Shape).rowMajor.symm.trans (idx1Equiv E)) (fun n => ?_) (fun n _ => ?_)
  · obtain ⟨e, he⟩ : ∃ e : Fin E, (⟨1, ![E]⟩ : Shape).rowMajor.symm n = ix1 e := ⟨_, eq_ix1 _⟩
    simp only [Finset.mem_filter, Finset.mem_univ, true_and, decide_eq_true_eq, Equiv.trans_apply]
    rw [he]
    exact addDims_resultIdx_eq_some_iff wf idx e j
  · obtain ⟨e, he⟩ : ∃ e : Fin E, (⟨1, ![E]⟩ : Shape).rowMajor.symm n = ix1 e := ⟨_, eq_ix1 _⟩
    simp only [Equiv.trans_apply]
    rw [he]
    rfl

/-! ## Accumulating rows of a two-axis array -/

/-- The dimension numbers of `x.at[idx].add(v)` for `x : [N, C]`, `idx : [E, 1]`, `v : [E, C]`: update row `e` lands on row `idx e`. -/
abbrev addRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {C : Nat}

theorem addRows_start0 (wf : ScatterDims.WF ⟨2, ![N, C]⟩ ⟨2, ![E, 1]⟩ ⟨2, ![E, C]⟩ [1] [0] [0] 1) (idx : IVec ⟨2, ![E, 1]⟩ w)
    (e : Fin E) (o : Fin C) : (addRows N C E wf).start (ix2 e o) idx 0 = (idx (ix2 e (0 : Fin 1))).toInt := by
  unfold ScatterDims.start
  rw [dif_pos (show (0 : Fin 2) ∈ (addRows N C E wf).scatterDimsToOperandDims from List.mem_singleton.mpr rfl)]
  congr 2
  funext b; refine Fin.ext ?_
  match b with
  | ⟨0, _⟩ => rfl
  | ⟨1, _⟩ => rfl

theorem addRows_start1 (wf : ScatterDims.WF ⟨2, ![N, C]⟩ ⟨2, ![E, 1]⟩ ⟨2, ![E, C]⟩ [1] [0] [0] 1) (idx : IVec ⟨2, ![E, 1]⟩ w)
    (e : Fin E) (o : Fin C) : (addRows N C E wf).start (ix2 e o) idx 1 = 0 := by
  unfold ScatterDims.start
  rw [dif_neg]
  simp

theorem addRows_window0 (wf : ScatterDims.WF ⟨2, ![N, C]⟩ ⟨2, ![E, 1]⟩ ⟨2, ![E, C]⟩ [1] [0] [0] 1) (e : Fin E) (o : Fin C) :
    (addRows N C E wf).window (ix2 e o) 0 = 0 := by
  unfold ScatterDims.window
  rw [dif_neg]
  simp [ScatterDims.sKept, Shape.kept]

theorem addRows_window1 (wf : ScatterDims.WF ⟨2, ![N, C]⟩ ⟨2, ![E, 1]⟩ ⟨2, ![E, C]⟩ [1] [0] [0] 1) (e : Fin E) (o : Fin C) :
    (addRows N C E wf).window (ix2 e o) 1 = o.val := by
  unfold ScatterDims.window
  rw [dif_pos (by simp [ScatterDims.sKept, Shape.kept])]
  rfl

/-- WHERE UPDATE ENTRY (e, o') LANDS: on row `idx e`, same column, when the row is inside the array. -/
theorem addRows_resultIdx_eq_some_iff (wf : ScatterDims.WF ⟨2, ![N, C]⟩ ⟨2, ![E, 1]⟩ ⟨2, ![E, C]⟩ [1] [0] [0] 1)
    (idx : IVec ⟨2, ![E, 1]⟩ w) (e : Fin E) (o' : Fin C) (j : Fin N) (o : Fin C) :
    (addRows N C E wf).resultIdx? (ix2 e o') idx = some (ix2 j o)
      ↔ (idx (ix2 e (0 : Fin 1))).toInt = (j.val : Int) ∧ o' = o := by
  unfold ScatterDims.resultIdx?
  have hs0 := addRows_start0 wf idx e o'
  have hs1 := addRows_start1 wf idx e o'
  have hw0 := addRows_window0 (N := N) wf e o'
  have hw1 := addRows_window1 (N := N) wf e o'
  split
  · next h =>
    have h0 := h 0
    rw [hs0, hw0] at h0
    simp only [Nat.cast_zero, add_zero] at h0
    constructor
    · intro heq
      have e0 := congrArg Fin.val (congrFun (Option.some.inj heq) 0)
      have e1 := congrArg Fin.val (congrFun (Option.some.inj heq) 1)
      simp only at e0 e1
      rw [hs0, hw0] at e0
      rw [hs1, hw1] at e1
      simp only [Nat.cast_zero, add_zero, zero_add, Int.toNat_natCast] at e0 e1
      have h1 : ((idx (ix2 e (0 : Fin 1))).toInt.toNat : Int) = (idx (ix2 e (0 : Fin 1))).toInt := Int.toNat_of_nonneg h0.1
      exact ⟨h1.symm.trans (congrArg (fun n : Nat => (n : Int)) e0), Fin.ext e1⟩
    · rintro ⟨heq, rfl⟩
      congr 1
      funext a
      refine Fin.ext ?_
      match a with
      | ⟨0, _⟩ =>
        show ((addRows N C E wf).start (ix2 e o') idx 0 + ((addRows N C E wf).window (ix2 e o') 0 : Int)).toNat = j.val
        rw [hs0, hw0, heq]; simp
      | ⟨1, _⟩ =>
        show ((addRows N C E wf).start (ix2 e o') idx 1 + ((addRows N C E wf).window (ix2 e o') 1 : Int)).toNat = o'.val
        rw [hs1, hw1]; simp
  · next h =>
    constructor
    · intro heq; exact absurd heq (by simp)
    · rintro ⟨heq, rfl⟩
      exfalso; apply h
      intro a
      match a with
      | ⟨0, _⟩ =>
        show 0 ≤ (addRows N C E wf).start (ix2 e o') idx 0 + ((addRows N C E wf).window (ix2 e o') 0 : Int)
          ∧ (addRows N C E wf).start (ix2 e o') idx 0 + ((addRows N C E wf).window (ix2 e o') 0 : Int) < (N : Int)
        rw [hs0, hw0, heq]
        have := j.isLt
        simp only [Nat.cast_zero, add_zero]
        exact ⟨by omega, by exact_mod_cast this⟩
      | ⟨1, _⟩ =>
        show 0 ≤ (addRows N C E wf).start (ix2 e o') idx 1 + ((addRows N C E wf).window (ix2 e o') 1 : Int)
          ∧ (addRows N C E wf).start (ix2 e o') idx 1 + ((addRows N C E wf).window (ix2 e o') 1 : Int) < (C : Int)
        rw [hs1, hw1]
        have := o'.isLt
        simp only [zero_add]
        exact ⟨by omega, by exact_mod_cast this⟩

/-- THE ACCUMULATED ARRAY AT (j, o), over the extended reals: the operand there plus the entries, in column `o`, of the
    update rows of the edges that name row `j`. -/
theorem scatterAdd_addRows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (j : Fin N) (o : Fin C) :
    Host.scatterAdd (addRows N C E wf) x idx upd (ix2 j o)
      = x (ix2 j o) + ∑ e : Fin E with (idx (ix2 e (0 : Fin 1))).toInt = (j.val : Int), upd (ix2 e o) := by
  show Ideal.hostScatterAdd (addRows N C E wf) x idx upd (ix2 j o) = _
  unfold Ideal.hostScatterAdd
  congr 1
  symm
  refine Finset.sum_nbij (fun e => ix2 e o) ?_ ?_ ?_ (fun _ _ => rfl)
  · intro e he
    simp only [Finset.mem_filter, Finset.mem_univ, true_and] at he ⊢
    exact (addRows_resultIdx_eq_some_iff wf idx e o j o).mpr ⟨he, rfl⟩
  · intro a _ b _ hab
    have := congrFun hab 0
    exact this
  · intro u hu
    obtain ⟨e, o', rfl⟩ : ∃ (e : Fin E) (o' : Fin C), u = ix2 e o' := ⟨u 0, u 1, eq_ix2 u⟩
    simp only [Finset.coe_filter, Finset.mem_univ, true_and, Set.mem_setOf_eq] at hu
    obtain ⟨he, rfl⟩ := (addRows_resultIdx_eq_some_iff wf idx e o' j o).mp hu
    exact ⟨e, by simpa using he, rfl⟩

/-! ## Reading at the positions an edge list names -/

/-- The dimension numbers of `x[idx]` for `x : [N]`, `idx : [E, 1]`: result `[E]`. -/
abbrev takeDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[idx]` AT EDGE `e`: the operand at `idx e`, read signed and clamped into `[0, N − 1]`. -/
theorem gather_take1_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeDims1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (takeDims1 N E wf).start (ix1 e) idx 0 + (takeDims1 N E wf).batchCoord (ix1 e) 0 + (takeDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N E wf).startIndexMap from List.mem_singleton.mpr rfl)]
  have hsi : (takeDims1 N E wf).siIdx (ix1 e) ⟨List.idxOf (0 : Fin 1) (takeDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx, :]` for `x : [N, C]`, `idx : [E, 1]`: result `[E, C]`, row `e` the operand's row `idx e`. -/
abbrev takeRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[idx, :]` AT (e, o): the operand at row `idx e` (read signed, clamped into `[0, N − 1]`), column `o`. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (takeRows N C E wf) x idx (ix2 e o)
      = x (ix2 ⟨min (idx (ix2 e (0 : Fin 1))).toInt.toNat (N - 1), by omega⟩ o) := by
  unfold Host.gather
  congr 1
  funext a
  refine Fin.ext ?_
  match a with
  | ⟨0, _⟩ =>
    show (takeRows N C E wf).start (ix2 e o) idx 0 + (takeRows N C E wf).batchCoord (ix2 e o) 0 + (takeRows N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C E wf).startIndexMap from List.mem_singleton.mpr rfl)]
    have hsi : (takeRows N C E wf).siIdx (ix2 e o) ⟨List.idxOf (0 : Fin 2) (takeRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (takeRows N C E wf).start (ix2 e o) idx 1 + (takeRows N C E wf).batchCoord (ix2 e o) 1 + (takeRows N C E wf).offCoord (ix2 e o) 1 = o.val
    rw [GatherDims.batchCoord_eq_zero _ _ _ List.not_mem_nil]
    have hst : (takeRows N C E wf).start (ix2 e o) idx 1 = 0 := by
      unfold GatherDims.start
      rw [dif_neg]
      simp
    rw [hst]
    simp only [Nat.zero_add, Nat.add_zero]
    unfold GatherDims.offCoord
    rw [dif_pos (by simp [GatherDims.sKept, Shape.kept])]
    rfl

end Cert.EdgeOps

end
-- ==== Proof.RefValue.lean ====
/-
  The reference program's result is the weighted histogram of the specification, entry by entry.

  The reference gives every entry `(b, c, q, d)` of the similarity array a bin `bins ∈ [0, 29]` and a weight
  `w ∈ {0, 1}`, numbers the rows `(b, c, q)` row-major (`row < 8192`), and accumulates `w` at position
  `30 · row + bins` of a zero array of `245760` entries; entry `(b, c, q, k)` of the result is the logarithm of
  position `30 · row(b, c, q) + k` plus `ε`.

  Three facts carry the proof. (1) No integer operation wraps: `30 · row + bins < 245760 < 2³¹`, so the index word
  read signed is that number, it is not negative, and the negative-index correction leaves it alone. (2) Because
  `bins < 30`, the number `30 · row + bins` determines `row` and `bins`: a flat position `e` names `30 · row(b, c, q) + k`
  exactly when it lies in row `(b, c, q)` and its entry falls in bin `k`. (3) The positions of row `(b, c, q)` are the
  `4096` entries `d ↦ row(b, c, q) · 4096 + d`, so the accumulated sum over the naming positions is the sum over `d` of
  the weight where the entry falls in bin `k` and of zero elsewhere: the specification's weighted count.
-/
import proofs.«120851_j24816321036869_1_alg».proof.Proof.Gen.ReferenceIdeal.Read
import proofs.«120851_j24816321036869_1_alg».proof.Proof.HistSpec
import proofs.«120851_j24816321036869_1_alg».proof.Proof.LibEdgeOps
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The bin word of an entry: the clipped truncation, read at an index. -/
theorem bins_apply (x0 : (⟨S64x4x32x4096, .f32⟩ : BufTy).Contents (Elt Ideal))
    (b : Fin 64) (c : Fin 4) (q : Fin 32) (d : Fin 4096) :
    val_main_v7 (F := Ideal) x0 (ix4 b c q d) = Cert.Hist.binOf (x0 (ix4 b c q d)) := by
  rw [val_main_v7_apply, val_main_call0_v4_apply, val_main_call0_v3_apply, val_main_c_2_apply,
    val_main_call0_v2_apply, val_main_call0_v1_apply, val_main_call0_v0_apply, val_main_c_apply,
    val_main_v6_apply, val_main_v5_apply, val_main_v4_apply, val_main_cst_1_apply,
    val_main_v3_apply, val_main_v2_apply, val_main_cst_0_apply, val_main_v1_apply, val_main_v0_apply,
    val_main_cst_apply]
  rfl

/-- The row-major number of a row `(b, c, q)` of the `[64, 4, 32]` grid. -/
def rowN (b : Fin 64) (c : Fin 4) (q : Fin 32) : Nat := (b.val * 4 + c.val) * 32 + q.val

theorem rowN_lt (b : Fin 64) (c : Fin 4) (q : Fin 32) : rowN b c q < 8192 := by
  unfold rowN; omega

/-- The row offset word: thirty times the row number, read at an index. -/
theorem rowoff_apply (b : Fin 64) (c : Fin 4) (q : Fin 32) (d : Fin 4096) :
    val_main_v24 (F := Ideal) (ix4 b c q d) = IntOp.muli (BitVec.ofNat 32 (rowN b c q)) 30#32 := by
  rw [val_main_v24_apply, val_main_v23_apply, val_main_v22_apply, val_main_v20_apply, val_main_v21_apply,
    val_main_c_5_apply]
  show IntOp.muli (BitVec.ofNat 32 (((b.val * 4 + c.val) * 32 + q.val) * 1 + 0)) 30#32 = _
  unfold rowN
  rw [Nat.mul_one, Nat.add_zero]

/-- The weight of a position: the product of the two validity flags, read at an index. -/
theorem weight_apply (x1 : (⟨S64x4096, .i32⟩ : BufTy).Contents (Elt Ideal)) (x2 : (⟨S64x32, .i32⟩ : BufTy).Contents (Elt Ideal))
    (b : Fin 64) (c : Fin 4) (q : Fin 32) (d : Fin 4096) :
    val_main_v19 (F := Ideal) x1 x2 (ix4 b c q d) = Cert.Hist.validOf (x1 (ix2 b d)) * Cert.Hist.validOf (x2 (ix2 b q)) := by
  rw [val_main_v19_apply, val_main_v18_apply, val_main_v17_apply, val_main_v16_apply,
    val_main_v14_apply, val_main_v10_apply, val_main_v9_apply, val_main_v8_apply, val_main_c_3_apply,
    val_main_v15_apply, val_main_v13_apply, val_main_v12_apply, val_main_v11_apply, val_main_c_4_apply]
  have e1 : idx_main_v10 (idx_main_v14 (idx_main_v18 (idx_main_v19 (ix4 b c q d)))) = ix2 b d :=
    funext fun a => Fin.ext (by match a with | ⟨0, _⟩ => rfl | ⟨1, _⟩ => rfl)
  have e2 : idx_main_v13 (idx_main_v15 (idx_main_v18 (idx_main_v19 (ix4 b c q d)))) = ix2 b q :=
    funext fun a => Fin.ext (by match a with | ⟨0, _⟩ => rfl | ⟨1, _⟩ => rfl)
  rw [e1, e2]
  exact Cert.Hist.uitofp_andi_ne _ _

/-- Thirty times a row number, added to a clipped word, does not wrap: read signed it is the sum of the numbers. -/
theorem idxword_toInt (v : BitVec 32) (r : Nat) (hr : r < 8192) :
    (IntOp.addi (Cert.Hist.clip v) (IntOp.muli (BitVec.ofNat 32 r) 30#32)).toInt
      = (((Cert.Hist.clip v).toNat + r * 30 : Nat) : Int) := by
  have hc := (Cert.Hist.clip_toNat v).2
  unfold IntOp.addi IntOp.muli
  have h1 : (BitVec.ofNat 32 r * 30#32).toNat = r * 30 := by
    rw [BitVec.toNat_mul, BitVec.toNat_ofNat, BitVec.toNat_ofNat]
    omega
  have h2 : (Cert.Hist.clip v + BitVec.ofNat 32 r * 30#32).toNat = (Cert.Hist.clip v).toNat + r * 30 := by
    rw [BitVec.toNat_add, h1]; omega
  rw [BitVec.toInt_eq_toNat_of_lt (by rw [h2]; omega), h2]

/-- A word that is nonnegative read signed is not below zero, so the negative-index wrap leaves it alone. -/
theorem wrap_id (u : BitVec 32) (h : 0 ≤ u.toInt) :
    Scalar.select (IntOp.cmpi .slt u 0#32) (IntOp.addi u 245760#32) u = u := by
  have h0 : (0#32 : BitVec 32).toInt = 0 := by decide
  have hs : u.slt 0#32 = false := by
    rw [Bool.eq_false_iff]
    intro hh
    have := BitVec.slt_iff_toInt_lt.mp hh
    omega
  unfold IntOp.cmpi
  show Scalar.select (BitVec.ofBool (u.slt 0#32)) _ _ = _
  rw [hs]
  exact select_zero _ _

/-- The word `30 · row + bin` read signed, with the bin word spelt by the specification. -/
theorem idxword_binOf (x : Ideal .f32) (r : Nat) (hr : r < 8192) :
    (IntOp.addi (Cert.Hist.binOf x) (IntOp.muli (BitVec.ofNat 32 r) 30#32)).toInt
      = (((Cert.Hist.binOf x).toNat + r * 30 : Nat) : Int) := idxword_toInt _ r hr

theorem binOf_le (x : Ideal .f32) : (Cert.Hist.binOf x).toNat ≤ 29 := (Cert.Hist.clip_toNat _).2

/-! ## The coordinates of a flat position -/

/-- A flat position `e` of the `[64, 4, 32, 4096]` array, row-major: its four coordinates. -/
def posB (e : Fin 33554432) : Fin 64 := ⟨e.val / 524288, by have := e.isLt; omega⟩
/-- Its second coordinate. -/
def posC (e : Fin 33554432) : Fin 4 := ⟨e.val / 131072 % 4, by omega⟩
/-- Its third coordinate. -/
def posQ (e : Fin 33554432) : Fin 32 := ⟨e.val / 4096 % 32, by omega⟩
/-- Its fourth coordinate. -/
def posD (e : Fin 33554432) : Fin 4096 := ⟨e.val % 4096, by omega⟩

theorem unflat26 (e : Fin 33554432) : idx_main_v26 (ix1 e) = ix4 (posB e) (posC e) (posQ e) (posD e) :=
  funext fun a => Fin.ext (by match a with | ⟨0, _⟩ => rfl | ⟨1, _⟩ => rfl | ⟨2, _⟩ => rfl | ⟨3, _⟩ => rfl)

theorem unflat28 (e : Fin 33554432) : idx_main_v28 (ix1 e) = ix4 (posB e) (posC e) (posQ e) (posD e) :=
  funext fun a => Fin.ext (by match a with | ⟨0, _⟩ => rfl | ⟨1, _⟩ => rfl | ⟨2, _⟩ => rfl | ⟨3, _⟩ => rfl)

/-- The scatter index of position `e`, read signed: the bin of the entry plus thirty times the row of the entry. -/
theorem index_apply (x0 : (⟨S64x4x32x4096, .f32⟩ : BufTy).Contents (Elt Ideal)) (e : Fin 33554432) :
    (val_main_v34 (F := Ideal) x0 (ix2 e (0 : Fin 1))).toInt
      = (((Cert.Hist.binOf (x0 (ix4 (posB e) (posC e) (posQ e) (posD e)))).toNat + rowN (posB e) (posC e) (posQ e) * 30 : Nat) : Int) := by
  have e34 : idx_main_v34 (ix2 e (0 : Fin 1)) = ix1 e :=
    funext fun a => Fin.ext (by match a with | ⟨0, _⟩ => rfl)
  rw [val_main_v34_apply, e34, val_main_v33_apply, val_main_v30_apply, val_main_v32_apply, val_main_v29_apply,
    val_main_c_7_apply, val_main_v31_apply, val_main_c_8_apply, val_main_v26_apply, unflat26, val_main_v25_apply,
    bins_apply, rowoff_apply]
  have hW := idxword_binOf (x0 (ix4 (posB e) (posC e) (posQ e) (posD e))) (rowN (posB e) (posC e) (posQ e)) (rowN_lt _ _ _)
  rw [wrap_id _ (by rw [hW]; omega), hW]

/-- The update of position `e`: the weight of its entry. -/
theorem update_apply (x1 : (⟨S64x4096, .i32⟩ : BufTy).Contents (Elt Ideal)) (x2 : (⟨S64x32, .i32⟩ : BufTy).Contents (Elt Ideal))
    (e : Fin 33554432) :
    val_main_v28 (F := Ideal) x1 x2 (ix1 e)
      = Cert.Hist.validOf (x1 (ix2 (posB e) (posD e))) * Cert.Hist.validOf (x2 (ix2 (posB e) (posQ e))) := by
  rw [val_main_v28_apply, unflat28, weight_apply]

/-! ## Which positions name a given bin of a given row -/

/-- Position `e` names entry `30 · row(b, c, q) + k` exactly when it lies in row `(b, c, q)` and its entry falls in bin `k`:
    the bin is below thirty, so the index determines the row and the bin. -/
theorem names_iff (x0 : (⟨S64x4x32x4096, .f32⟩ : BufTy).Contents (Elt Ideal)) (b : Fin 64) (c : Fin 4) (q : Fin 32) (k : Fin 30)
    (e : Fin 33554432) :
    (val_main_v34 (F := Ideal) x0 (ix2 e (0 : Fin 1))).toInt = ((rowN b c q * 30 + k.val : Nat) : Int)
      ↔ (posB e = b ∧ posC e = c ∧ posQ e = q)
          ∧ Cert.Hist.binOf (x0 (ix4 (posB e) (posC e) (posQ e) (posD e))) = BitVec.ofNat 32 k.val := by
  rw [index_apply]
  have hle := binOf_le (x0 (ix4 (posB e) (posC e) (posQ e) (posD e)))
  generalize Cert.Hist.binOf (x0 (ix4 (posB e) (posC e) (posQ e) (posD e))) = w at hle ⊢
  have hk := k.isLt
  constructor
  · intro h
    have h' : w.toNat + rowN (posB e) (posC e) (posQ e) * 30 = rowN b c q * 30 + k.val := by exact_mod_cast h
    have hrow : rowN (posB e) (posC e) (posQ e) = rowN b c q := by omega
    have hw : w.toNat = k.val := by omega
    refine ⟨?_, ?_⟩
    · unfold rowN at hrow
      have h1 := (posB e).isLt; have h2 := (posC e).isLt; have h3 := (posQ e).isLt
      have h4 := b.isLt; have h5 := c.isLt; have h6 := q.isLt
      refine ⟨Fin.ext ?_, Fin.ext ?_, Fin.ext ?_⟩ <;> omega
    · apply BitVec.eq_of_toNat_eq
      rw [BitVec.toNat_ofNat, hw]
      omega
  · rintro ⟨⟨hb, hc, hq⟩, hw⟩
    rw [hb, hc, hq, hw, BitVec.toNat_ofNat]
    have : k.val % 2 ^ 32 = k.val := by omega
    rw [this, Nat.add_comm]

/-- The flat position of entry `(b, c, q, d)`. -/
def flat (b : Fin 64) (c : Fin 4) (q : Fin 32) (d : Fin 4096) : Fin 33554432 :=
  ⟨rowN b c q * 4096 + d.val, by have := rowN_lt b c q; have := d.isLt; omega⟩

theorem coords_flat (b : Fin 64) (c : Fin 4) (q : Fin 32) (d : Fin 4096) :
    posB (flat b c q d) = b ∧ posC (flat b c q d) = c ∧ posQ (flat b c q d) = q ∧ posD (flat b c q d) = d := by
  have h4 := b.isLt; have h5 := c.isLt; have h6 := q.isLt; have h7 := d.isLt
  refine ⟨Fin.ext ?_, Fin.ext ?_, Fin.ext ?_, Fin.ext ?_⟩ <;>
    (show _ = _; unfold flat rowN; dsimp only [posB, posC, posQ, posD]; omega)

theorem flat_coords (e : Fin 33554432) : flat (posB e) (posC e) (posQ e) (posD e) = e := by
  have := e.isLt
  refine Fin.ext ?_
  show rowN (posB e) (posC e) (posQ e) * 4096 + (posD e).val = e.val
  unfold rowN; dsimp only [posB, posC, posQ, posD]; omega

/-! ## The accumulated sum is the weighted count -/

/-- The updates of the positions that name bin `k` of row `(b, c, q)` add up to the weighted count of that bin:
    those positions are the entries `d` of the row whose similarity falls in bin `k`. -/
theorem sum_names (x0 : (⟨S64x4x32x4096, .f32⟩ : BufTy).Contents (Elt Ideal)) (x1 : (⟨S64x4096, .i32⟩ : BufTy).Contents (Elt Ideal))
    (x2 : (⟨S64x32, .i32⟩ : BufTy).Contents (Elt Ideal)) (b : Fin 64) (c : Fin 4) (q : Fin 32) (k : Fin 30) :
    (∑ e : Fin 33554432 with (val_main_v34 (F := Ideal) x0 (ix2 e (0 : Fin 1))).toInt = ((rowN b c q * 30 + k.val : Nat) : Int),
        val_main_v28 (F := Ideal) x1 x2 (ix1 e))
      = ∑ d : Fin 4096, Cert.Hist.term x0 x1 x2 (BitVec.ofNat 32 k.val) b c q d := by
  have hR : ∀ d : Fin 4096, Cert.Hist.term x0 x1 x2 (BitVec.ofNat 32 k.val) b c q d
      = if Cert.Hist.binOf (x0 (ix4 b c q d)) = BitVec.ofNat 32 k.val
          then Cert.Hist.validOf (x1 (ix2 b d)) * Cert.Hist.validOf (x2 (ix2 b q)) else 0 := by
    intro d
    unfold Cert.Hist.term
    rw [Cert.Hist.maskOf_eq]
    split
    · rw [one_mul]
    · rw [zero_mul]
  rw [Finset.sum_congr rfl (fun d _ => hR d), ← Finset.sum_filter]
  refine Finset.sum_nbij' (fun e => posD e) (fun d => flat b c q d) ?_ ?_ ?_ ?_ ?_
  · intro e he
    rw [Finset.mem_filter] at he ⊢
    obtain ⟨⟨hb, hc, hq⟩, hw⟩ := (names_iff x0 b c q k e).mp he.2
    rw [hb, hc, hq] at hw
    exact ⟨Finset.mem_univ _, hw⟩
  · intro d hd
    rw [Finset.mem_filter] at hd ⊢
    obtain ⟨hb, hc, hq, hd'⟩ := coords_flat b c q d
    refine ⟨Finset.mem_univ _, (names_iff x0 b c q k (flat b c q d)).mpr ⟨⟨hb, hc, hq⟩, ?_⟩⟩
    rw [hb, hc, hq, hd']
    exact hd.2
  · intro e he
    rw [Finset.mem_filter] at he
    obtain ⟨⟨hb, hc, hq⟩, _⟩ := (names_iff x0 b c q k e).mp he.2
    have := flat_coords e
    rw [hb, hc, hq] at this
    exact this
  · intro d _
    exact (coords_flat b c q d).2.2.2
  · intro e he
    rw [Finset.mem_filter] at he
    obtain ⟨⟨hb, hc, hq⟩, _⟩ := (names_iff x0 b c q k e).mp he.2
    rw [update_apply, hb, hq]

/-! ## The reference's result is the specification -/

/-- The accumulated array at `j`: the dimension numbers the program prints are those of `x.at[idx].add(v)` on a one-axis
    array, so the entry is the start value there plus the updates of the positions that name `j`. -/
theorem scatter_apply (x0 : (⟨S64x4x32x4096, .f32⟩ : BufTy).Contents (Elt Ideal)) (x1 : (⟨S64x4096, .i32⟩ : BufTy).Contents (Elt Ideal))
    (x2 : (⟨S64x32, .i32⟩ : BufTy).Contents (Elt Ideal)) (j : Fin 245760) :
    val_main_v35 (F := Ideal) x0 x1 x2 (ix1 j)
      = val_main_v27 (F := Ideal) (ix1 j)
        + ∑ e : Fin 33554432 with (val_main_v34 (F := Ideal) x0 (ix2 e (0 : Fin 1))).toInt = (j.val : Int),
            val_main_v28 (F := Ideal) x1 x2 (ix1 e) :=
  Cert.EdgeOps.scatterAdd_addDims_apply Facts₀.scatter_S245760_S33554432x1_S33554432_n_0_0_1_wf
    (val_main_v27 (F := Ideal)) (val_main_v34 (F := Ideal) x0) (val_main_v28 (F := Ideal) x1 x2) j

/-- The reference's result, entry by entry, is `log (weighted count + ε)`. -/
theorem ref_eq_G (x0 : (⟨S64x4x32x4096, .f32⟩ : BufTy).Contents (Elt Ideal)) (x1 : (⟨S64x4096, .i32⟩ : BufTy).Contents (Elt Ideal))
    (x2 : (⟨S64x32, .i32⟩ : BufTy).Contents (Elt Ideal)) :
    Cert.ReferenceIdeal.Read.val_main_v39 (F := Ideal) x0 x1 x2 = Cert.Hist.G x0 x1 x2 := by
  funext y
  obtain ⟨b, c, q, k, rfl⟩ : ∃ (b : Fin 64) (c : Fin 4) (q : Fin 32) (k : Fin 30), y = ix4 b c q k :=
    ⟨y 0, y 1, y 2, y 3, eq_ix4 y⟩
  have hj : idx_main_v36 (ix4 b c q k)
      = ix1 (⟨rowN b c q * 30 + k.val, by have := rowN_lt b c q; have := k.isLt; omega⟩ : Fin 245760) :=
    funext fun a => Fin.ext (by match a with | ⟨0, _⟩ => rfl)
  rw [val_main_v39_apply, val_main_v38_apply, val_main_v37_apply, val_main_cst_9_apply, val_main_v36_apply, hj,
    scatter_apply, val_main_v27_apply, val_main_cst_6_apply, sum_names x0 x1 x2 b c q k]
  show FloatOps.hostUnary (F := Ideal) .log (FloatOps.addf (F := Ideal) (φ := .f32)
      (Ideal.ofBits .f32 0x00000000#32 + ∑ d : Fin 4096, Cert.Hist.term x0 x1 x2 (BitVec.ofNat 32 k.val) b c q d)
      (FloatOps.ofBits (F := Ideal) .f32 0x3727C5AC#32)) = _
  rw [Ideal.ofBits_zero_f32, zero_add]
  rfl

end Cert.ReferenceIdeal.RefValue

end
-- ==== Proof.lean ====
/-
  A weighted thirty-bin histogram of similarities, per (batch, channel, query) row, and its logarithm.

  Both programs map a similarity `x` to the bin `clip (trunc (((x + c₁) / 2) · 29), 0, 29)` — the same three constants,
  the same operations, so the same signed word — and weigh document position `d` of row `(b, q)` by the product of two
  flags, "document token (b, d) is not −1" and "query token (b, q) is not −1". Entry `(b, c, q, k)` of the result is
  `log (H + ε)`, `H` the total weight of the positions `d` whose similarity `(b, c, q, d)` falls in bin `k` (`Hist.G`).

  The kernel walks an `8 × 4` grid, eight batch rows and `1024` document positions per point, keeping a `[8, 4, 32, 30]`
  accumulator across the four points of a row block: zeroed at the first, and at each point, for every bin in turn,
  increased by the row sums of (bin indicator) · (weight) over the point's positions; at the fourth point it stores
  `log (accumulator + ε)`. Over the extended reals a row sum is a finite sum and `0 + ·` is the identity, so the
  accumulator ends at the sum over all `4096` positions, cut into four consecutive blocks (`Result.run`).
  The reference adds every weight into a flat array of `64·4·32·30` cells at the cell `30·row + bin`; the clipped bin lies
  in `[0, 29]`, so no integer operation wraps, the negative-index correction is the identity, and a position lands in cell
  `30·row(b, c, q) + k` exactly when it belongs to row `(b, c, q)` and its bin is `k`: the cell ends at the same sum, the
  indicator now selecting the terms instead of multiplying them (`RefValue.ref_eq_G`). Nothing uses finiteness of the
  inputs: only commutativity and associativity of sums, `0 + s = s`, `1 · w = w` and `0 · w = 0`.
  The three frames are the generated runs; the idealization rewrote nothing.
-/
import proofs.«120851_j24816321036869_1_alg».proof.Defs
import proofs.«120851_j24816321036869_1_alg».proof.Proof.Gen.Kernel
import proofs.«120851_j24816321036869_1_alg».proof.Proof.Gen.Kernel.Skeleton
import proofs.«120851_j24816321036869_1_alg».proof.Proof.Gen.Kernel.Launch
import proofs.«120851_j24816321036869_1_alg».proof.Proof.Gen.Kernel.Points
import proofs.«120851_j24816321036869_1_alg».proof.Proof.Gen.Kernel.Frame
import proofs.«120851_j24816321036869_1_alg».proof.Proof.Gen.KernelIdeal
import proofs.«120851_j24816321036869_1_alg».proof.Proof.Gen.KernelIdeal.Skeleton
import proofs.«120851_j24816321036869_1_alg».proof.Proof.Gen.KernelIdeal.Launch
import proofs.«120851_j24816321036869_1_alg».proof.Proof.Gen.KernelIdeal.Points
import proofs.«120851_j24816321036869_1_alg».proof.Proof.Gen.KernelIdeal.Frame
import proofs.«120851_j24816321036869_1_alg».proof.Proof.Gen.ReferenceIdeal
import proofs.«120851_j24816321036869_1_alg».proof.Proof.Gen.KernelIdeal.Value
import proofs.«120851_j24816321036869_1_alg».proof.Proof.Gen.ReferenceIdeal.Run
import proofs.«120851_j24816321036869_1_alg».proof.Proof.Gen.ReferenceIdeal.Read
import proofs.«120851_j24816321036869_1_alg».proof.Proof.Gen.Pre_finite_inputs
import proofs.«120851_j24816321036869_1_alg».proof.Proof.KernelValue
import proofs.«120851_j24816321036869_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's straight line of host operations runs and leaves its arguments as they were. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with `Hist.G` of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.ref_eq_G, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
